-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S32x256 .f32) (main_arg2 : FVec F S32 .f32) (main_arg3 : FVec F S256x32 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S32x256x256 : Shape := ⟨3, ![32, 256, 256]⟩
abbrev S1x256x4096 : Shape := ⟨3, ![1, 256, 4096]⟩
abbrev S1x256x256 : Shape := ⟨3, ![1, 256, 256]⟩
abbrev S256x4096 : Shape := ⟨2, ![256, 4096]⟩
abbrev S256x1 : Shape := ⟨2, ![256, 1]⟩
abbrev S4096x256 : Shape := ⟨2, ![4096, 256]⟩
abbrev S256x256 : Shape := ⟨2, ![256, 256]⟩
abbrev S1x32 : Shape := ⟨2, ![1, 32]⟩
abbrev S1x256 : Shape := ⟨2, ![1, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x1 : Shape := ⟨3, ![8, 1, 1]⟩
abbrev S8x32 : Shape := ⟨2, ![8, 32]⟩
abbrev S8x256x8x64 : Shape := ⟨4, ![8, 256, 8, 64]⟩
abbrev S8x256x1x1 : Shape := ⟨4, ![8, 256, 1, 1]⟩

abbrev nBuf : Space → Nat
  | .hbm => 11
  | .vmem => 18
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S32x256x256, .f32⟩
  | .hbm, ⟨7, _⟩ => ⟨S1x32, .f32⟩
  | .hbm, ⟨8, _⟩ => ⟨S1x256, .f32⟩
  | .hbm, ⟨9, _⟩ => ⟨S32x256, .f32⟩
  | .hbm, ⟨10, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x256, .f32⟩
  | .local _ .vmem, ⟨3, _⟩ => ⟨S1x256x256, .f32⟩
  | .local _ .vmem, ⟨4, _⟩ => ⟨S8x256x256, .f32⟩
  | .local _ .vmem, ⟨5, _⟩ => ⟨S8x256x256, .f32⟩
  | .local _ .vmem, ⟨6, _⟩ => ⟨S32x256, .f32⟩
  | .local _ .vmem, ⟨7, _⟩ => ⟨S1x32, .f32⟩
  | .local _ .vmem, ⟨8, _⟩ => ⟨S256x32, .f32⟩
  | .local _ .vmem, ⟨9, _⟩ => ⟨S1x256, .f32⟩
  | .local _ .vmem, ⟨10, _⟩ => ⟨S8x256, .f32⟩
  | .local _ .vmem, ⟨11, _⟩ => ⟨S8x256, .f32⟩
  | .local _ .vmem, ⟨12, _⟩ => ⟨S8x256x8x64, .f32⟩
  | .local _ .vmem, ⟨13, _⟩ => ⟨S8x256x8x64, .f32⟩
  | .local _ .vmem, ⟨14, _⟩ => ⟨S8x256, .f32⟩
  | .local _ .vmem, ⟨15, _⟩ => ⟨S8x256, .f32⟩
  | .local _ .vmem, ⟨16, _⟩ => ⟨S8x256x8x64, .f32⟩
  | .local _ .vmem, ⟨17, _⟩ => ⟨S8x256x8x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S8x256x8x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x256x8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  transposes_S256x4096_p1_0_S4096x256 : S256x4096.Transposes [1, 0] S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S32_S1x32 : S32.ShapeCasts S1x32
  shapeCasts_S256_S1x256 : S256.ShapeCasts S1x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  reduces_S8x256x1_S8x1 : S8x256x1.Reduces [1] S8x1
  shapeCasts_S8x1_S8x1x1 : S8x1.ShapeCasts S8x1x1
  broadcasts_S8x1x1_S8x256x256 : S8x1x1.Broadcasts S8x256x256
  iota_S256x256_d0_w32 : S256x256.Iotas .tc 32 [0]
  iota_S256x256_d1_w32 : S256x256.Iotas .tc 32 [1]
  shapeCasts_S1x256x256_S1x256x256 : S1x256x256.ShapeCasts S1x256x256
  broadcasts_S1x256x256_S8x256x256 : S1x256x256.Broadcasts S8x256x256
  reduces_S8x256x256_S8x256_2 : S8x256x256.Reduces [1] S8x256
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S256x32_S256x32_0_0 : ∀ a, (![0, 0] : Fin 2 → Nat) a + S256x32.size a ≤ S256x32.size a
  h_S256x32 : 0 < S256x32.numel
  transposes_S256x32_p1_0_S32x256 : S256x32.Transposes [1, 0] S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x8x64_S8x256x8x64_0_0_0_0 : ∀ a, (![0, 0, 0, 0] : Fin 4 → Nat) a + S8x256x8x64.size a ≤ S8x256x8x64.size a
  h_S8x256x8x64 : 0 < S8x256x8x64.numel
  shapeCasts_S8x256_S8x256x1x1 : S8x256.ShapeCasts S8x256x1x1
  shapeCasts_S8x256x1x1_S8x256x1x1 : S8x256x1x1.ShapeCasts S8x256x1x1
  broadcasts_S8x256x1x1_S8x256x8x64 : S8x256x1x1.Broadcasts S8x256x8x64
  dot_S256x4096_S4096x256_S256x256_1_0_0_1_n_n_wf : DotDims.WF S256x4096 S4096x256 S256x256 [1] [0] [0] [1] [] []
  dot_S8x256x256_S8x256x256_S8x256x256_2_1_1_2_0_0_wf : DotDims.WF S8x256x256 S8x256x256 S8x256x256 [2] [1] [1] [2] [0] [0]
  dot_S8x256_S256x32_S8x32_1_0_0_1_n_n_wf : DotDims.WF S8x256 S256x32 S8x32 [1] [0] [0] [1] [] []
  dot_S8x32_S32x256_S8x256_1_0_0_1_n_n_wf : DotDims.WF S8x32 S32x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S32x256x256.size a
  hwx0_1 : ∀ i : grid0.Coords, EltTy.bits .f32 = 32 ∨ (Rect.block (s := S32x256x256) S1x256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S32x256x256.size a
  hwx1_0 : ∀ i : grid1.Coords, EltTy.bits .f32 = 32 ∨ (Rect.block (s := S32x256x256) S8x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x32.size a ≤ S256x32.size a
  hwx1_3 : ∀ i : grid1.Coords, EltTy.bits .f32 = 32 ∨ (Rect.block (s := S256x32) S256x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S32x256.size a
  hwx1_5 : ∀ i : grid1.Coords, EltTy.bits .f32 = 32 ∨ (Rect.block (s := S32x256) S8x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x8x64.size a ≤ S32x256x64x64.size a
  hwx2_0 : ∀ i : grid2.Coords, EltTy.bits .f32 = 32 ∨ (Rect.block (s := S32x256x64x64) S8x256x8x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256.size a ≤ S32x256.size a
  hwx2_1 : ∀ i : grid2.Coords, EltTy.bits .f32 = 32 ∨ (Rect.block (s := S32x256) S8x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x256x8x64.size a ≤ S32x256x64x64.size a
  hwx2_2 : ∀ i : grid2.Coords, EltTy.bits .f32 = 32 ∨ (Rect.block (s := S32x256x64x64) S8x256x8x64.size (cc2_transform_2 i) (hinb2_2 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf
def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf
def dot_S8x32_S32x256_S8x256_1_0_0_1_n_n : DotDims S8x32 S32x256 S8x256 where
  lhsContracting := [1]
  rhsContracting := [0]
  lhsNonContracting := [0]
  rhsNonContracting := [1]
  lhsBatch := []
  rhsBatch := []
  wf := dot_S8x32_S32x256_S8x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S8x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S8x256x8x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S8x256x8x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S_ : Shape := ⟨0, ![]⟩
abbrev S32x256x1 : Shape := ⟨3, ![32, 256, 1]⟩
abbrev S32x256x256 : Shape := ⟨3, ![32, 256, 256]⟩
abbrev S32x1x1 : Shape := ⟨3, ![32, 1, 1]⟩
abbrev S256x256 : Shape := ⟨2, ![256, 256]⟩
abbrev S1x256x256 : Shape := ⟨3, ![1, 256, 256]⟩
abbrev S32x32 : Shape := ⟨2, ![32, 32]⟩
abbrev S1x32 : Shape := ⟨2, ![1, 32]⟩
abbrev S1x256 : Shape := ⟨2, ![1, 256]⟩
abbrev S32x256x1x1 : Shape := ⟨4, ![32, 256, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x4096, .f32⟩
  | .hbm, ⟨13, _⟩ => ⟨S32x256x4096, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S_, .f32⟩
  | .hbm, ⟨19, _⟩ => ⟨S32, .f32⟩
  | .hbm, ⟨20, _⟩ => ⟨S32x1x1, .f32⟩
  | .hbm, ⟨21, _⟩ => ⟨S32x256x256, .f32⟩
  | .hbm, ⟨22, _⟩ => ⟨S32x256x256, .f32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .f32⟩
  | .hbm, ⟨30, _⟩ => ⟨S1x256x256, .f32⟩
  | .hbm, ⟨31, _⟩ => ⟨S_, .f32⟩
  | .hbm, ⟨32, _⟩ => ⟨S1x256x256, .f32⟩
  | .hbm, ⟨33, _⟩ => ⟨S1x256x256, .f32⟩
  | .hbm, ⟨34, _⟩ => ⟨S32x256x256, .f32⟩
  | .hbm, ⟨35, _⟩ => ⟨S32x256x256, .f32⟩
  | .hbm, ⟨36, _⟩ => ⟨S_, .f32⟩
  | .hbm, ⟨37, _⟩ => ⟨S32x256x256, .f32⟩
  | .hbm, ⟨38, _⟩ => ⟨S32x256x256, .f32⟩
  | .hbm, ⟨39, _⟩ => ⟨S32x256x256, .f32⟩
  | .hbm, ⟨40, _⟩ => ⟨S32x256x256, .f32⟩
  | .hbm, ⟨41, _⟩ => ⟨S32x256x256, .f32⟩
  | .hbm, ⟨42, _⟩ => ⟨S32x256x256, .f32⟩
  | .hbm, ⟨43, _⟩ => ⟨S_, .f32⟩
  | .hbm, ⟨44, _⟩ => ⟨S32x256x256, .f32⟩
  | .hbm, ⟨45, _⟩ => ⟨S32x256x256, .f32⟩
  | .hbm, ⟨46, _⟩ => ⟨S32x256x256, .f32⟩
  | .hbm, ⟨47, _⟩ => ⟨S32x256x256, .f32⟩
  | .hbm, ⟨48, _⟩ => ⟨S32x256x256, .f32⟩
  | .hbm, ⟨49, _⟩ => ⟨S32x256x256, .f32⟩
  | .hbm, ⟨50, _⟩ => ⟨S32x256x256, .f32⟩
  | .hbm, ⟨51, _⟩ => ⟨S_, .f32⟩
  | .hbm, ⟨52, _⟩ => ⟨S32x256x256, .f32⟩
  | .hbm, ⟨53, _⟩ => ⟨S32x256x256, .f32⟩
  | .hbm, ⟨54, _⟩ => ⟨S32x256x256, .f32⟩
  | .hbm, ⟨55, _⟩ => ⟨S32x256x256, .f32⟩
  | .hbm, ⟨56, _⟩ => ⟨S32x256x256, .f32⟩
  | .hbm, ⟨57, _⟩ => ⟨S32x256x256, .f32⟩
  | .hbm, ⟨58, _⟩ => ⟨S32x256x256, .f32⟩
  | .hbm, ⟨59, _⟩ => ⟨S_, .f32⟩
  | .hbm, ⟨60, _⟩ => ⟨S32x256x256, .f32⟩
  | .hbm, ⟨61, _⟩ => ⟨S32x256x256, .f32⟩
  | .hbm, ⟨62, _⟩ => ⟨S32x256x256, .f32⟩
  | .hbm, ⟨63, _⟩ => ⟨S32x256x256, .f32⟩
  | .hbm, ⟨64, _⟩ => ⟨S_, .f32⟩
  | .hbm, ⟨65, _⟩ => ⟨S32x256x256, .f32⟩
  | .hbm, ⟨66, _⟩ => ⟨S32x256x256, .f32⟩
  | .hbm, ⟨67, _⟩ => ⟨S32x256x256, .f32⟩
  | .hbm, ⟨68, _⟩ => ⟨S32x256x256, .f32⟩
  | .hbm, ⟨69, _⟩ => ⟨S32x256x256, .f32⟩
  | .hbm, ⟨70, _⟩ => ⟨S32x256x256, .f32⟩
  | .hbm, ⟨71, _⟩ => ⟨S32, .f32⟩
  | .hbm, ⟨72, _⟩ => ⟨S32x1x1, .f32⟩
  | .hbm, ⟨73, _⟩ => ⟨S32x256x256, .f32⟩
  | .hbm, ⟨74, _⟩ => ⟨S32x256x256, .f32⟩
  | .hbm, ⟨75, _⟩ => ⟨S_, .f32⟩
  | .hbm, ⟨76, _⟩ => ⟨S32x256, .f32⟩
  | .hbm, ⟨77, _⟩ => ⟨S_, .f32⟩
  | .hbm, ⟨78, _⟩ => ⟨S32x256, .f32⟩
  | .hbm, ⟨79, _⟩ => ⟨S32x256, .f32⟩
  | .hbm, ⟨80, _⟩ => ⟨S256x32, .f32⟩
  | .hbm, ⟨81, _⟩ => ⟨S32x32, .f32⟩
  | .hbm, ⟨82, _⟩ => ⟨S1x32, .f32⟩
  | .hbm, ⟨83, _⟩ => ⟨S32x32, .f32⟩
  | .hbm, ⟨84, _⟩ => ⟨S32x32, .f32⟩
  | .hbm, ⟨85, _⟩ => ⟨S_, .f32⟩
  | .hbm, ⟨86, _⟩ => ⟨S32x32, .f32⟩
  | .hbm, ⟨87, _⟩ => ⟨S32x32, .f32⟩
  | .hbm, ⟨88, _⟩ => ⟨S32x256, .f32⟩
  | .hbm, ⟨89, _⟩ => ⟨S32x256, .f32⟩
  | .hbm, ⟨90, _⟩ => ⟨S1x256, .f32⟩
  | .hbm, ⟨91, _⟩ => ⟨S32x256, .f32⟩
  | .hbm, ⟨92, _⟩ => ⟨S32x256, .f32⟩
  | .hbm, ⟨93, _⟩ => ⟨S32x256, .f32⟩
  | .hbm, ⟨94, _⟩ => ⟨S32x256, .f32⟩
  | .hbm, ⟨95, _⟩ => ⟨S_, .f32⟩
  | .hbm, ⟨96, _⟩ => ⟨S32x256, .f32⟩
  | .hbm, ⟨97, _⟩ => ⟨S32x256, .f32⟩
  | .hbm, ⟨98, _⟩ => ⟨S_, .f32⟩
  | .hbm, ⟨99, _⟩ => ⟨S32x256, .f32⟩
  | .hbm, ⟨100, _⟩ => ⟨S32x256, .f32⟩
  | .hbm, ⟨101, _⟩ => ⟨S32x256x1x1, .f32⟩
  | .hbm, ⟨102, _⟩ => ⟨S32x256x64x64, .f32⟩
  | .hbm, ⟨103, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call0_cst : Ref sig .tc := ⟨.hbm, 85, rfl⟩
abbrev main_call0_v0 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x4096_S32x256_d2 : S32x256x4096.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x4096_0_1_2 : S32x256x1.BroadcastsInDim S32x256x4096 (![0, 1, 2] : Fin 3 → Fin S32x256x4096.rank)
  bcast_S_S32x256x256 : S_.BroadcastsInDim S32x256x256 (![] : Fin 0 → Fin S32x256x256.rank)
  reducesTo_S32x256x256_S32_d1_2 : S32x256x256.ReducesTo [1, 2] S32
  bcast_S32_S32x1x1_0 : S32.BroadcastsInDim S32x1x1 (![0] : Fin 1 → Fin S32x1x1.rank)
  bcast_S32x1x1_S32x256x256_0_1_2 : S32x1x1.BroadcastsInDim S32x256x256 (![0, 1, 2] : Fin 3 → Fin S32x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S_S1x256x256 : S_.BroadcastsInDim S1x256x256 (![] : Fin 0 → Fin S1x256x256.rank)
  bcast_S1x256x256_S32x256x256_0_1_2 : S1x256x256.BroadcastsInDim S32x256x256 (![0, 1, 2] : Fin 3 → Fin S32x256x256.rank)
  reducesTo_S32x256x256_S32x256_d1 : S32x256x256.ReducesTo [1] S32x256
  bcast_S_S32x256 : S_.BroadcastsInDim S32x256 (![] : Fin 0 → Fin S32x256.rank)
  transposes_S32x256_S256x32_1_0 : S32x256.Transposes [1, 0] S256x32
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  transposes_S256x32_S32x256_1_0 : S256x32.Transposes [1, 0] S32x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256x4096_S32x256x4096_S32x256x256_2_2_1_1_0_0_wf : DotDims.WF S32x256x4096 S32x256x4096 S32x256x256 [2] [2] [1] [1] [0] [0]
  dot_S32x256x256_S32x256x256_S32x256x256_2_1_1_2_0_0_wf : DotDims.WF S32x256x256 S32x256x256 S32x256x256 [2] [1] [1] [2] [0] [0]
  dot_S32x256_S256x32_S32x32_1_0_0_1_n_n_wf : DotDims.WF S32x256 S256x32 S32x32 [1] [0] [0] [1] [] []
  dot_S32x32_S32x256_S32x256_1_0_0_1_n_n_wf : DotDims.WF S32x32 S32x256 S32x256 [1] [0] [0] [1] [] []

variable [Facts₀]

def dot_S32x256x4096_S32x256x4096_S32x256x256_2_2_1_1_0_0 : DotDims S32x256x4096 S32x256x4096 S32x256x256 where
  lhsContracting := [2]
  rhsContracting := [2]
  lhsNonContracting := [1]
  rhsNonContracting := [1]
  lhsBatch := [0]
  rhsBatch := [0]
  wf := dot_S32x256x4096_S32x256x4096_S32x256x256_2_2_1_1_0_0_wf
def dot_S32x256x256_S32x256x256_S32x256x256_2_1_1_2_0_0 : DotDims S32x256x256 S32x256x256 S32x256x256 where
  lhsContracting := [2]
  rhsContracting := [1]
  lhsNonContracting := [1]
  rhsNonContracting := [2]
  lhsBatch := [0]
  rhsBatch := [0]
  wf := dot_S32x256x256_S32x256x256_S32x256x256_2_1_1_2_0_0_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf

class Facts : Prop extends Facts₀ where

variable [Facts]
-- ==== Proof.Spec.lean ====
/-
  The function both programs compute, stated once over plain index types and the extended reals.

  For one image of the batch, with X its 256 channels by 4096 pixels:
    * the centred covariance  C = (Xc · Xcᵀ) / 4096,  Xc = X − (row sum of X) / 4096;
    * its trace-like norm     n = Σ_i Σ_j C i j,  and  A = C / n;
    * the coupled Newton–Schulz iteration for the square root of A, started at
        ZY = ½ (3·I − A),  Y = A · ZY,  Z = ZY,
      three rounds of   ZY' = ½ ((3·I − Z) · Y),  Y' = Y · ZY',  Z' = ZY' · Z,
      and the closing step   (½ Y · (3·I − Z)) · Y,  scaled by √n;
    * the column mean  s j = (Σ_i S i j) / 256  of that square root S;
    * two dense layers  h = max (s · w1ᵀ + b1) 0,  g = logistic (h · w2ᵀ + b2);
  and the result is g (per image and channel) times the input, pixel by pixel.

  Every operation is the exact one on the extended reals, in the order written: nothing here is rearranged, so no
  finiteness is assumed anywhere. Float literals stay as the bit patterns both programs print.
-/
import Idealize.ShloMosaic.PureOps.Ideal
import Idealize.ShloMosaic.PureOps.Ideal.Laws

noncomputable section

namespace Cert.Soca

open Idealize.ShloMosaic

/-- A 256 × 256 matrix of extended reals: one image's channel-by-channel table. -/
abbrev Mat := Fin 256 → Fin 256 → EReal

/-- The literals of both programs, as the extended reals their bit patterns denote. -/
def cHalf : EReal := Ideal.ofBits .f32 0x3F000000#32
def cThree : EReal := Ideal.ofBits .f32 0x40400000#32
def c4096 : EReal := Ideal.ofBits .f32 0x45800000#32
def c256 : EReal := Ideal.ofBits .f32 0x43800000#32

/-- The matrix product, entry by entry: the sum over the shared index. -/
def mm (a b : Mat) : Mat := fun i j => ∑ k : Fin 256, a i k * b k j
/-- The entrywise difference. -/
def msub (a b : Mat) : Mat := fun i j => a i j - b i j
/-- A scalar times every entry (the scalar on the left, as both programs write it). -/
def mscale (c : EReal) (a : Mat) : Mat := fun i j => c * a i j
/-- Three times the identity matrix: 3 · 1 on the diagonal, 3 · 0 off it. -/
def eye3 : Mat := fun i j => cThree * (if i = j then (1 : EReal) else 0)

/-- One image's centred rows: each channel minus its mean over the 4096 pixels. -/
def centred (X : Fin 256 → Fin 4096 → EReal) : Fin 256 → Fin 4096 → EReal :=
  fun c m => X c m - Ideal.div (∑ m' : Fin 4096, X c m') c4096
/-- The covariance of the channels of one image. -/
def covMat (X : Fin 256 → Fin 4096 → EReal) : Mat :=
  fun c d => Ideal.div (∑ m : Fin 4096, centred X c m * centred X d m) c4096

/-- The sum of all entries, rows first. -/
def total (C : Mat) : EReal := ∑ i : Fin 256, ∑ j : Fin 256, C i j
/-- The matrix normalised by the sum of its entries. -/
def normed (C : Mat) : Mat := fun i j => Ideal.div (C i j) (total C)

/-- The iteration's start. -/
def zy0 (A : Mat) : Mat := mscale cHalf (msub eye3 A)
def y0 (A : Mat) : Mat := mm A (zy0 A)
/-- One round from the pair (Y, Z). -/
def zyNext (Y Z : Mat) : Mat := mscale cHalf (mm (msub eye3 Z) Y)
def yNext (Y Z : Mat) : Mat := mm Y (zyNext Y Z)
def zNext (Y Z : Mat) : Mat := mm (zyNext Y Z) Z
/-- The pairs after one, two and three rounds. -/
def y1 (A : Mat) : Mat := yNext (y0 A) (zy0 A)
def z1 (A : Mat) : Mat := zNext (y0 A) (zy0 A)
def y2 (A : Mat) : Mat := yNext (y1 A) (z1 A)
def z2 (A : Mat) : Mat := zNext (y1 A) (z1 A)
def y3 (A : Mat) : Mat := yNext (y2 A) (z2 A)
def z3 (A : Mat) : Mat := zNext (y2 A) (z2 A)
/-- The closing step. -/
def nsLast (A : Mat) : Mat := mm (mm (mscale cHalf (y3 A)) (msub eye3 (z3 A))) (y3 A)
/-- The square root of the covariance: the iteration on the normalised matrix, scaled back by √(sum of entries). -/
def covSqrt (C : Mat) : Mat := fun i j => nsLast (normed C) i j * Ideal.sqrt (total C)
/-- Its column means. -/
def colMean (C : Mat) : Fin 256 → EReal := fun j => Ideal.div (∑ i : Fin 256, covSqrt C i j) c256

/-- The first dense layer with its rectifier. -/
def hidden (s : Fin 256 → EReal) (w1 : Fin 32 → Fin 256 → EReal) (b1 : Fin 32 → EReal) : Fin 32 → EReal :=
  fun a => max ((∑ k : Fin 256, s k * w1 a k) + b1 a) (Ideal.ofBits .f32 0x00000000#32)
/-- The second dense layer with the logistic function. -/
def gateOf (h : Fin 32 → EReal) (w2 : Fin 256 → Fin 32 → EReal) (b2 : Fin 256 → EReal) : Fin 256 → EReal :=
  fun c => Ideal.logistic ((∑ a : Fin 32, h a * w2 c a) + b2 c)

/-- One image's channel gate from its covariance and the layers' weights. -/
def gateRow (C : Mat) (w1 : Fin 32 → Fin 256 → EReal) (b1 : Fin 32 → EReal) (w2 : Fin 256 → Fin 32 → EReal)
    (b2 : Fin 256 → EReal) : Fin 256 → EReal :=
  gateOf (hidden (colMean C) w1 b1) w2 b2

end Cert.Soca

end
-- ==== Proof.KernelCov.lean ====
/-
  The first kernel body, read at one entry of the block it stores.

  The block holds one image X: 256 channels by 4096 pixels. The body sums each row, divides by 4096, subtracts that
  mean from the row, multiplies the centred matrix by its own transpose and divides by 4096. Read at (c, d), with
  every operation the exact one on the extended reals and every format change the identity, that is

      ( Σ_m (X c m − (Σ_m' X c m') / 4096) · (X d m − (Σ_m' X d m') / 4096) ) / 4096,

  the entry (c, d) of the specification's covariance. Nothing is rearranged: the product into a zero accumulator is
  the sum over the shared index (0 + x = x), the transposed operand at (m, d) is the centred matrix at (d, m), and
  the layout operations only rename indices.
-/
import proofs.«177194_j90701119357020_1_alg».proof.Proof.Gen.KernelIdeal.Skeleton
import proofs.«177194_j90701119357020_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Soca.Kern

open Idealize.ShloMosaic Idealize.ShloMosaic.ValueIdx Cert.KernelIdeal Cert.KernelIdeal.Gen

/-! ### The 256×4096 by 4096×256 product -/

abbrev DC := dot_S256x4096_S4096x256_S256x256_1_0_0_1_n_n
theorem DC_lhs0 (i : S256x256.Idx) (q : DC.contr.Idx) : (DC.lhsIdx i q 0).val = (i 0).val := by
  unfold DotDims.lhsIdx
  rw [dif_neg (show ¬(0 : Fin S256x4096.rank) ∈ DC.lhsBatch by decide), dif_pos (show (0 : Fin S256x4096.rank) ∈ DC.lhsNonContracting by decide)]
  rfl
theorem DC_lhs1 (i : S256x256.Idx) (q : DC.contr.Idx) : (DC.lhsIdx i q 1).val = (q ⟨0, by decide⟩).val :=
  DC.lhsIdx_val_of_single rfl i q
theorem DC_rhs0 (i : S256x256.Idx) (q : DC.contr.Idx) : (DC.rhsIdx i q 0).val = (q ⟨0, by decide⟩).val :=
  DC.rhsIdx_val_of_single rfl i q
theorem DC_rhs1 (i : S256x256.Idx) (q : DC.contr.Idx) : (DC.rhsIdx i q 1).val = (i 1).val := by
  unfold DotDims.rhsIdx
  rw [dif_neg (show ¬(1 : Fin S4096x256.rank) ∈ DC.rhsBatch by decide), dif_pos (show (1 : Fin S4096x256.rank) ∈ DC.rhsNonContracting by decide)]
  rfl

/-- The 256×4096 by 4096×256 product into a zero accumulator, read at (r, c): the sum over k of a(r,k) · b(k,c). -/
theorem DC_apply (a : FVec Ideal S256x4096 .bf16) (b : FVec Ideal S4096x256 .bf16) (r : Fin 256) (c : Fin 256) :
    FloatOps.matmul DC none a b (constant (F := Ideal) S256x256 .f32 0x00000000#32) (ix2 r c)
      = ∑ k : Fin 4096, a (ix2 r k) * b (ix2 k c) := by
  rw [Ideal.matmul_constant_zero_apply, ← Equiv.sum_comp (contrEquiv1 DC 4096 rfl rfl).symm]
  refine Finset.sum_congr rfl fun k _ => ?_
  have hk := contrEquiv1_symm_val DC 4096 rfl rfl k
  have el : DC.lhsIdx (ix2 r c) ((contrEquiv1 DC 4096 rfl rfl).symm k) = ix2 r k := funext fun a => Fin.ext (by
    match a with
    | ⟨0, _⟩ => exact DC_lhs0 _ _
    | ⟨1, _⟩ => exact (DC_lhs1 _ _).trans hk)
  have er : DC.rhsIdx (ix2 r c) ((contrEquiv1 DC 4096 rfl rfl).symm k) = ix2 k c := funext fun a => Fin.ext (by
    match a with
    | ⟨0, _⟩ => exact (DC_rhs0 _ _).trans hk
    | ⟨1, _⟩ => exact DC_rhs1 _ _)
  rw [el, er]

/-! ### One image's centred covariance -/

/-- The block's leading unit axis dropped: (c, m) reads (0, c, m). -/
theorem cov_cast_in (x0 : Vec Ideal S1x256x4096 .f32) (h : S1x256x4096.ShapeCasts S256x4096) (c : Fin 256) (m : Fin 4096) :
    shapeCast S256x4096 x0 h (ix2 c m) = x0 (ix3 (0 : Fin 1) c m) :=
  shapeCast_1ab_ab_apply x0 h c m

/-- The row sums over the 4096 pixels. -/
theorem cov_rowsum (v : FVec Ideal S256x4096 .f32) (h : S256x4096.Reduces [1] S256) (hφ : FKind.Formats .f32)
    (hacc : (0x00000000#32 : BitVec 32) = 0x00000000#32) (c : Fin 256) :
    multiReduction (F := Ideal) .add [1] S256 v 0x00000000#32 h hφ hacc (ix1 c) = ∑ m : Fin 4096, v (ix2 c m) :=
  (Ideal.multiReduction_add_single v 0x00000000#32 h hφ hacc (ix1 c)).trans
    (Finset.sum_congr rfl fun m _ => congrArg v (funext fun a => Fin.ext (by
      match a with
      | ⟨0, _⟩ => rfl
      | ⟨1, _⟩ => rfl)))

/-- A vector viewed as a column: (c, 0) reads c. -/
theorem cov_col (v : FVec Ideal S256 .f32) (h : S256.ShapeCasts S256x1) (c : Fin 256) (u : Fin 1) :
    shapeCast S256x1 v h (ix2 c u) = v (ix1 c) :=
  shapeCast_apply v h (ix2 c u) (ix1 c) (by
    have hu : u.val = 0 := by omega
    rw [Shape.rowMajor_val_one, Shape.rowMajor_val_two]
    show c.val = c.val * 1 + u.val
    omega)

/-- A column broadcast along its rows: (c, m) reads (c, 0). -/
theorem cov_bcast_col (v : FVec Ideal S256x1 .f32) (h : S256x1.Broadcasts S256x4096) (c : Fin 256) (m : Fin 4096) :
    broadcastTo S256x4096 v h (ix2 c m) = v (ix2 c (0 : Fin 1)) :=
  broadcastTo_apply v h (ix2 c m) (ix2 c (0 : Fin 1)) fun a => by
    match a with
    | ⟨0, _⟩ => rfl
    | ⟨1, _⟩ => rfl

/-- The centred rows, entry by entry. -/
theorem cov_centred (x0 : Vec Ideal S1x256x4096 .f32) (h1 : S1x256x4096.ShapeCasts S256x4096)
    (h2 : S256x4096.Reduces [1] S256) (hφ : FKind.Formats .f32) (hacc : (0x00000000#32 : BitVec 32) = 0x00000000#32)
    (h3 : S256.ShapeCasts S256x1) (h4 : S256x1.Broadcasts S256x4096) (c : Fin 256) (m : Fin 4096) :
    subf (shapeCast S256x4096 x0 h1)
        (broadcastTo S256x4096
          (divf (shapeCast S256x1 (multiReduction (F := Ideal) .add [1] S256 (shapeCast S256x4096 x0 h1) 0x00000000#32 h2 hφ hacc) h3)
            (broadcast S256x1 (Scalar.ofBits (F := Ideal) .f32 0x45800000#32))) h4) (ix2 c m)
      = centred (fun c m => x0 (ix3 (0 : Fin 1) c m)) c m := by
  rw [subf_apply, cov_bcast_col, divf_apply, broadcast_apply, cov_col, cov_rowsum, cov_cast_in]
  unfold centred
  refine congrArg (fun s => x0 (ix3 (0 : Fin 1) c m) - Ideal.div s c4096) ?_
  refine Finset.sum_congr rfl fun m' _ => ?_
  rw [cov_cast_in]

end Cert.Soca.Kern

namespace Cert.Soca

open Idealize.ShloMosaic Idealize.ShloMosaic.ValueIdx Cert.KernelIdeal Cert.KernelIdeal.Gen
open Cert.Soca.Kern

/-- The kernel's covariance block at (0, c, d) is the specification's covariance of the image in the block. -/
theorem cov_payload (x0 : Vec Ideal S1x256x4096 .f32) (c d : Fin 256) :
    k0_pay1 (F := Ideal) x0 (ix3 (0 : Fin 1) c d) = covMat (fun c m => x0 (ix3 (0 : Fin 1) c m)) c d := by
  unfold k0_pay1
  refine (shapeCast_ab_1ab_apply _ _ (0 : Fin 1) c d).trans ?_
  rw [divf_apply, broadcast_apply]
  unfold covMat
  refine congrArg (fun s => Ideal.div s c4096) ?_
  refine (DC_apply _ _ c d).trans ?_
  refine Finset.sum_congr rfl fun m _ => ?_
  rw [transpose_ix2_apply, truncf_apply, truncf_apply, cov_centred, cov_centred]

end Cert.Soca

end
-- ==== Proof.KernelGate.lean ====
/-
  The second kernel body, read at one entry of the block it stores.

  The block holds the covariances of eight images, C_p for p < 8, each 256 × 256. Image by image the body computes
  n = Σ_i Σ_j C i j and A = C / n; the start ZY = ½ (3·I − A), Y = A · ZY, Z = ZY; three rounds
  ZY' = ½ ((3·I − Z) · Y), Y' = Y · ZY', Z' = ZY' · Z; the closing step (½ Y · (3·I − Z)) · Y scaled by √n; the
  column means over 256 rows; then h = max (s · w1ᵀ + b1) 0 and g = logistic (h · w2ᵀ + b2).

  Every batched operation acts on the eight matrices separately, so the proof reads a batch X as the family of
  matrices  i j ↦ X (p, i, j)  and shows, one operation kind at a time, that the operation on batches is the
  specification's operation on these matrices: the batched product is the matrix product (a sum over the shared
  index, the zero accumulator dropped by 0 + x = x), the entrywise difference and the scaling by ½ are entrywise,
  3·I is the select between 1 and 0 on "row = column" times 3. The named intermediates then follow one from another
  in the order the body computes them; no algebraic law is used and nothing is assumed finite.
-/
import proofs.«177194_j90701119357020_1_alg».proof.Proof.Gen.KernelIdeal.Skeleton
import proofs.«177194_j90701119357020_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Soca.Kern

open Idealize.ShloMosaic Idealize.ShloMosaic.ValueIdx Cert.KernelIdeal Cert.KernelIdeal.Gen

/-- One image's matrix inside a batch of eight. -/
def matOf (X : FVec Ideal S8x256x256 .f32) (p : Fin 8) : Mat := fun i j => X (ix3 p i j)

/-- The batched product's dimension numbers: batch axis 0, the left operand's axis 2 against the right operand's axis 1. -/
abbrev DB := dot_S8x256x256_S8x256x256_S8x256x256_2_1_1_2_0_0

theorem DB_lhs0 (i : S8x256x256.Idx) (q : DB.contr.Idx) : (DB.lhsIdx i q 0).val = (i 0).val := by
  unfold DotDims.lhsIdx
  rw [dif_pos (show (0 : Fin S8x256x256.rank) ∈ DB.lhsBatch by decide)]
  rfl
theorem DB_lhs1 (i : S8x256x256.Idx) (q : DB.contr.Idx) : (DB.lhsIdx i q 1).val = (i 1).val := by
  unfold DotDims.lhsIdx
  rw [dif_neg (show ¬(1 : Fin S8x256x256.rank) ∈ DB.lhsBatch by decide), dif_pos (show (1 : Fin S8x256x256.rank) ∈ DB.lhsNonContracting by decide)]
  rfl
theorem DB_lhs2 (i : S8x256x256.Idx) (q : DB.contr.Idx) : (DB.lhsIdx i q 2).val = (q ⟨0, by decide⟩).val :=
  DB.lhsIdx_val_of_single rfl i q
theorem DB_rhs0 (i : S8x256x256.Idx) (q : DB.contr.Idx) : (DB.rhsIdx i q 0).val = (i 0).val := by
  unfold DotDims.rhsIdx
  rw [dif_pos (show (0 : Fin S8x256x256.rank) ∈ DB.rhsBatch by decide)]
  rfl
theorem DB_rhs1 (i : S8x256x256.Idx) (q : DB.contr.Idx) : (DB.rhsIdx i q 1).val = (q ⟨0, by decide⟩).val :=
  DB.rhsIdx_val_of_single rfl i q
theorem DB_rhs2 (i : S8x256x256.Idx) (q : DB.contr.Idx) : (DB.rhsIdx i q 2).val = (i 2).val := by
  unfold DotDims.rhsIdx
  rw [dif_neg (show ¬(2 : Fin S8x256x256.rank) ∈ DB.rhsBatch by decide), dif_pos (show (2 : Fin S8x256x256.rank) ∈ DB.rhsNonContracting by decide)]
  rfl

/-- The batched product into a zero accumulator, read at (p, i, j): the sum over k of a(p,i,k) · b(p,k,j). -/
theorem bmm_apply (a b : FVec Ideal S8x256x256 .bf16) (p : Fin 8) (i j : Fin 256) :
    FloatOps.matmul DB none a b (constant (F := Ideal) S8x256x256 .f32 0x00000000#32) (ix3 p i j)
      = ∑ k : Fin 256, a (ix3 p i k) * b (ix3 p k j) := by
  rw [Ideal.matmul_constant_zero_apply, ← Equiv.sum_comp (contrEquiv1 DB 256 rfl rfl).symm]
  refine Finset.sum_congr rfl fun k _ => ?_
  have hk := contrEquiv1_symm_val DB 256 rfl rfl k
  have el : DB.lhsIdx (ix3 p i j) ((contrEquiv1 DB 256 rfl rfl).symm k) = ix3 p i k := funext fun a => Fin.ext (by
    match a with
    | ⟨0, _⟩ => exact DB_lhs0 _ _
    | ⟨1, _⟩ => exact DB_lhs1 _ _
    | ⟨2, _⟩ => exact (DB_lhs2 _ _).trans hk)
  have er : DB.rhsIdx (ix3 p i j) ((contrEquiv1 DB 256 rfl rfl).symm k) = ix3 p k j := funext fun a => Fin.ext (by
    match a with
    | ⟨0, _⟩ => exact DB_rhs0 _ _
    | ⟨1, _⟩ => exact (DB_rhs1 _ _).trans hk
    | ⟨2, _⟩ => exact DB_rhs2 _ _)
  rw [el, er]

/-- So, image by image, the batched product of two (format-changed) batches is the matrix product. -/
theorem matOf_bmm (A B : FVec Ideal S8x256x256 .f32) (p : Fin 8) :
    matOf (matmul DB none (truncf .bf16 A bitsLt_bf16_f32) (truncf .bf16 B bitsLt_bf16_f32) (constant S8x256x256 .f32 0x00000000#32)) p
      = mm (matOf A p) (matOf B p) := by
  funext i j
  exact bmm_apply _ _ p i j

/-! ### Elementwise operations, image by image -/

theorem matOf_subf (A B : FVec Ideal S8x256x256 .f32) (p : Fin 8) :
    matOf (subf A B) p = msub (matOf A p) (matOf B p) := rfl

theorem matOf_half (A : FVec Ideal S8x256x256 .f32) (p : Fin 8) :
    matOf (mulf (broadcast S8x256x256 (Scalar.ofBits (F := Ideal) .f32 0x3F000000#32)) A) p = mscale cHalf (matOf A p) := rfl

/-! ### Sums along one axis, and the broadcasts of a per-image scalar -/

/-- The sum over the last axis of a batch of matrices: at (p, i) the sum over j. -/
theorem red_last (X : FVec Ideal S8x256x256 .f32) (h : S8x256x256.Reduces [2] S8x256) (hφ : FKind.Formats .f32)
    (hacc : (0x00000000#32 : BitVec 32) = 0x00000000#32) (p : Fin 8) (i : Fin 256) :
    multiReduction (F := Ideal) .add [2] S8x256 X 0x00000000#32 h hφ hacc (ix2 p i) = ∑ j : Fin 256, X (ix3 p i j) :=
  (Ideal.multiReduction_add_single X 0x00000000#32 h hφ hacc (ix2 p i)).trans
    (Finset.sum_congr rfl fun j _ => congrArg X (funext fun a => Fin.ext (by
      match a with
      | ⟨0, _⟩ => rfl
      | ⟨1, _⟩ => rfl
      | ⟨2, _⟩ => rfl)))

/-- The sum over the middle axis of a batch of matrices: at (p, j) the sum over i. -/
theorem red_mid (X : FVec Ideal S8x256x256 .f32) (h : S8x256x256.Reduces [1] S8x256) (hφ : FKind.Formats .f32)
    (hacc : (0x00000000#32 : BitVec 32) = 0x00000000#32) (p : Fin 8) (j : Fin 256) :
    multiReduction (F := Ideal) .add [1] S8x256 X 0x00000000#32 h hφ hacc (ix2 p j) = ∑ i : Fin 256, X (ix3 p i j) :=
  (Ideal.multiReduction_add_single X 0x00000000#32 h hφ hacc (ix2 p j)).trans
    (Finset.sum_congr rfl fun i _ => congrArg X (funext fun a => Fin.ext (by
      match a with
      | ⟨0, _⟩ => rfl
      | ⟨1, _⟩ => rfl
      | ⟨2, _⟩ => rfl)))

/-- The sum over the middle axis of a batch of columns: at (p, 0) the sum over i. -/
theorem red_col (X : FVec Ideal S8x256x1 .f32) (h : S8x256x1.Reduces [1] S8x1) (hφ : FKind.Formats .f32)
    (hacc : (0x00000000#32 : BitVec 32) = 0x00000000#32) (p : Fin 8) (u : Fin 1) :
    multiReduction (F := Ideal) .add [1] S8x1 X 0x00000000#32 h hφ hacc (ix2 p u) = ∑ i : Fin 256, X (ix3 p i u) :=
  (Ideal.multiReduction_add_single X 0x00000000#32 h hφ hacc (ix2 p u)).trans
    (Finset.sum_congr rfl fun i _ => congrArg X (funext fun a => Fin.ext (by
      match a with
      | ⟨0, _⟩ => rfl
      | ⟨1, _⟩ => rfl
      | ⟨2, _⟩ => rfl)))

/-- A per-image scalar broadcast over the image's matrix reads that scalar everywhere. -/
theorem bcast_scalar (v : FVec Ideal S8x1x1 .f32) (h : S8x1x1.Broadcasts S8x256x256) (p : Fin 8) (i j : Fin 256) :
    broadcastTo S8x256x256 v h (ix3 p i j) = v (ix3 p (0 : Fin 1) (0 : Fin 1)) :=
  broadcastTo_apply v h (ix3 p i j) (ix3 p (0 : Fin 1) (0 : Fin 1)) fun a => by
    match a with
    | ⟨0, _⟩ => rfl
    | ⟨1, _⟩ => rfl
    | ⟨2, _⟩ => rfl

/-- One matrix broadcast over the batch reads that matrix in every image. -/
theorem bcast_mat (v : FVec Ideal S1x256x256 .f32) (h : S1x256x256.Broadcasts S8x256x256) (p : Fin 8) (i j : Fin 256) :
    broadcastTo S8x256x256 v h (ix3 p i j) = v (ix3 (0 : Fin 1) i j) :=
  broadcastTo_apply v h (ix3 p i j) (ix3 (0 : Fin 1) i j) fun a => by
    match a with
    | ⟨0, _⟩ => rfl
    | ⟨1, _⟩ => rfl
    | ⟨2, _⟩ => rfl

/-! ### The literals -/

theorem ofBits_one_f32 : Ideal.ofBits .f32 0x3F800000#32 = 1 := by
  simp [Ideal.ofBits, Ideal.ieee, -EReal.coe_mul]; norm_num

/-- The select between 1.0 and 0.0 on "row index = column index" is the identity matrix's entry. -/
theorem eye_entry (i j : Fin 256) :
    Scalar.select (IntOp.cmpi .eq (BitVec.ofNat 32 i.val) (BitVec.ofNat 32 j.val))
        (Ideal.ofBits .f32 0x3F800000#32) (Ideal.ofBits .f32 0x00000000#32)
      = if i = j then (1 : EReal) else 0 := by
  by_cases hij : i = j
  · subst hij
    rw [IntOp.cmpi_eq.mpr rfl, select_one, ofBits_one_f32, if_pos rfl]
  · have hne : ¬ IntOp.cmpi .eq (BitVec.ofNat 32 i.val) (BitVec.ofNat 32 j.val) = 1#1 := by
      intro h
      have h2 := congrArg BitVec.toNat (IntOp.cmpi_eq.mp h)
      rw [BitVec.toNat_ofNat, BitVec.toNat_ofNat] at h2
      have hi := i.isLt
      have hj := j.isLt
      exact hij (Fin.ext (by omega))
    rw [eq_zero_of_ne_one hne, select_zero, Ideal.ofBits_zero_f32, if_neg hij]

/-! ### The two dense layers' products -/

abbrev DL1 := dot_S8x256_S256x32_S8x32_1_0_0_1_n_n
theorem DL1_lhs0 (i : S8x32.Idx) (q : DL1.contr.Idx) : (DL1.lhsIdx i q 0).val = (i 0).val := by
  unfold DotDims.lhsIdx
  rw [dif_neg (show ¬(0 : Fin S8x256.rank) ∈ DL1.lhsBatch by decide), dif_pos (show (0 : Fin S8x256.rank) ∈ DL1.lhsNonContracting by decide)]
  rfl
theorem DL1_lhs1 (i : S8x32.Idx) (q : DL1.contr.Idx) : (DL1.lhsIdx i q 1).val = (q ⟨0, by decide⟩).val :=
  DL1.lhsIdx_val_of_single rfl i q
theorem DL1_rhs0 (i : S8x32.Idx) (q : DL1.contr.Idx) : (DL1.rhsIdx i q 0).val = (q ⟨0, by decide⟩).val :=
  DL1.rhsIdx_val_of_single rfl i q
theorem DL1_rhs1 (i : S8x32.Idx) (q : DL1.contr.Idx) : (DL1.rhsIdx i q 1).val = (i 1).val := by
  unfold DotDims.rhsIdx
  rw [dif_neg (show ¬(1 : Fin S256x32.rank) ∈ DL1.rhsBatch by decide), dif_pos (show (1 : Fin S256x32.rank) ∈ DL1.rhsNonContracting by decide)]
  rfl

/-- The 8×256 by 256×32 product into a zero accumulator, read at (r, c): the sum over k of a(r,k) · b(k,c). -/
theorem DL1_apply (a : FVec Ideal S8x256 .bf16) (b : FVec Ideal S256x32 .bf16) (r : Fin 8) (c : Fin 32) :
    FloatOps.matmul DL1 none a b (constant (F := Ideal) S8x32 .f32 0x00000000#32) (ix2 r c)
      = ∑ k : Fin 256, a (ix2 r k) * b (ix2 k c) := by
  rw [Ideal.matmul_constant_zero_apply, ← Equiv.sum_comp (contrEquiv1 DL1 256 rfl rfl).symm]
  refine Finset.sum_congr rfl fun k _ => ?_
  have hk := contrEquiv1_symm_val DL1 256 rfl rfl k
  have el : DL1.lhsIdx (ix2 r c) ((contrEquiv1 DL1 256 rfl rfl).symm k) = ix2 r k := funext fun a => Fin.ext (by
    match a with
    | ⟨0, _⟩ => exact DL1_lhs0 _ _
    | ⟨1, _⟩ => exact (DL1_lhs1 _ _).trans hk)
  have er : DL1.rhsIdx (ix2 r c) ((contrEquiv1 DL1 256 rfl rfl).symm k) = ix2 k c := funext fun a => Fin.ext (by
    match a with
    | ⟨0, _⟩ => exact (DL1_rhs0 _ _).trans hk
    | ⟨1, _⟩ => exact DL1_rhs1 _ _)
  rw [el, er]

abbrev DL2 := dot_S8x32_S32x256_S8x256_1_0_0_1_n_n
theorem DL2_lhs0 (i : S8x256.Idx) (q : DL2.contr.Idx) : (DL2.lhsIdx i q 0).val = (i 0).val := by
  unfold DotDims.lhsIdx
  rw [dif_neg (show ¬(0 : Fin S8x32.rank) ∈ DL2.lhsBatch by decide), dif_pos (show (0 : Fin S8x32.rank) ∈ DL2.lhsNonContracting by decide)]
  rfl
theorem DL2_lhs1 (i : S8x256.Idx) (q : DL2.contr.Idx) : (DL2.lhsIdx i q 1).val = (q ⟨0, by decide⟩).val :=
  DL2.lhsIdx_val_of_single rfl i q
theorem DL2_rhs0 (i : S8x256.Idx) (q : DL2.contr.Idx) : (DL2.rhsIdx i q 0).val = (q ⟨0, by decide⟩).val :=
  DL2.rhsIdx_val_of_single rfl i q
theorem DL2_rhs1 (i : S8x256.Idx) (q : DL2.contr.Idx) : (DL2.rhsIdx i q 1).val = (i 1).val := by
  unfold DotDims.rhsIdx
  rw [dif_neg (show ¬(1 : Fin S32x256.rank) ∈ DL2.rhsBatch by decide), dif_pos (show (1 : Fin S32x256.rank) ∈ DL2.rhsNonContracting by decide)]
  rfl

/-- The 8×32 by 32×256 product into a zero accumulator, read at (r, c): the sum over k of a(r,k) · b(k,c). -/
theorem DL2_apply (a : FVec Ideal S8x32 .bf16) (b : FVec Ideal S32x256 .bf16) (r : Fin 8) (c : Fin 256) :
    FloatOps.matmul DL2 none a b (constant (F := Ideal) S8x256 .f32 0x00000000#32) (ix2 r c)
      = ∑ k : Fin 32, a (ix2 r k) * b (ix2 k c) := by
  rw [Ideal.matmul_constant_zero_apply, ← Equiv.sum_comp (contrEquiv1 DL2 32 rfl rfl).symm]
  refine Finset.sum_congr rfl fun k _ => ?_
  have hk := contrEquiv1_symm_val DL2 32 rfl rfl k
  have el : DL2.lhsIdx (ix2 r c) ((contrEquiv1 DL2 32 rfl rfl).symm k) = ix2 r k := funext fun a => Fin.ext (by
    match a with
    | ⟨0, _⟩ => exact DL2_lhs0 _ _
    | ⟨1, _⟩ => exact (DL2_lhs1 _ _).trans hk)
  have er : DL2.rhsIdx (ix2 r c) ((contrEquiv1 DL2 32 rfl rfl).symm k) = ix2 k c := funext fun a => Fin.ext (by
    match a with
    | ⟨0, _⟩ => exact (DL2_rhs0 _ _).trans hk
    | ⟨1, _⟩ => exact DL2_rhs1 _ _)
  rw [el, er]

/-! ### The kernel's intermediates, image by image -/

/-- Three times the identity, in every image. -/
theorem matOf_pay5 (p : Fin 8) : matOf (k1_pay5 (F := Ideal)) p = eye3 := by
  funext i j
  unfold matOf k1_pay5
  refine (bcast_mat _ _ p i j).trans ?_
  rw [shapeCast_self]
  refine (shapeCast_ab_1ab_apply _ _ (0 : Fin 1) i j).trans ?_
  rw [mulf_apply, broadcast_apply, select_apply, broadcast_apply, broadcast_apply]
  show Ideal.ofBits .f32 0x40400000#32 * Scalar.select (IntOp.cmpi .eq _ _) (Ideal.ofBits .f32 0x3F800000#32) (Ideal.ofBits .f32 0x00000000#32) = _
  rw [iota_single_apply, iota_single_apply]
  show _ * Scalar.select (IntOp.cmpi .eq (BitVec.ofNat 32 i.val) (BitVec.ofNat 32 j.val)) _ _ = _
  rw [eye_entry]
  rfl

/-- The sum of all entries of an image's matrix. -/
theorem pay3_apply (x0 : Vec Ideal S8x256x256 .f32) (p : Fin 8) :
    k1_pay3 (F := Ideal) x0 (ix3 p (0 : Fin 1) (0 : Fin 1)) = total (matOf x0 p) := by
  unfold k1_pay3 k1_pay2
  refine (shapeCast_apply _ _ (ix3 p (0 : Fin 1) (0 : Fin 1)) (ix2 p (0 : Fin 1)) (by
    rw [Shape.rowMajor_val_two, Shape.rowMajor_val_three]
    show p.val * 1 + 0 = (p.val * 1 + 0) * 1 + 0
    omega)).trans ?_
  refine (red_col _ _ _ _ p 0).trans ?_
  unfold total
  refine Finset.sum_congr rfl fun i _ => ?_
  refine (shapeCast_apply _ _ (ix3 p i (0 : Fin 1)) (ix2 p i) (by
    rw [Shape.rowMajor_val_two, Shape.rowMajor_val_three]
    show p.val * 256 + i.val = (p.val * 256 + i.val) * 1 + 0
    omega)).trans ?_
  refine (red_last _ _ _ _ p i).trans ?_
  rw [shapeCast_self]
  rfl

theorem matOf_pay4 (x0 : Vec Ideal S8x256x256 .f32) (p : Fin 8) :
    matOf (k1_pay4 (F := Ideal) x0) p = normed (matOf x0 p) := by
  funext i j
  unfold matOf k1_pay4 k1_pay2
  rw [divf_apply, bcast_scalar, pay3_apply, shapeCast_self]
  rfl

theorem matOf_pay6 (x0 : Vec Ideal S8x256x256 .f32) (p : Fin 8) :
    matOf (k1_pay6 (F := Ideal) x0) p = zy0 (normed (matOf x0 p)) := by
  unfold k1_pay6
  rw [matOf_half, matOf_subf, matOf_pay5, matOf_pay4]
  rfl

theorem matOf_pay7 (x0 : Vec Ideal S8x256x256 .f32) (p : Fin 8) :
    matOf (k1_pay7 (F := Ideal) x0) p = y0 (normed (matOf x0 p)) := by
  unfold k1_pay7
  rw [matOf_bmm, matOf_pay4, matOf_pay6]
  rfl

theorem matOf_pay8 (x0 : Vec Ideal S8x256x256 .f32) (p : Fin 8) :
    matOf (k1_pay8 (F := Ideal) x0) p = zyNext (y0 (normed (matOf x0 p))) (zy0 (normed (matOf x0 p))) := by
  unfold k1_pay8
  rw [matOf_half, matOf_bmm, matOf_subf, matOf_pay5, matOf_pay6, matOf_pay7]
  rfl

theorem matOf_pay9 (x0 : Vec Ideal S8x256x256 .f32) (p : Fin 8) :
    matOf (k1_pay9 (F := Ideal) x0) p = y1 (normed (matOf x0 p)) := by
  unfold k1_pay9
  rw [matOf_bmm, matOf_pay7, matOf_pay8]
  rfl

theorem matOf_pay10 (x0 : Vec Ideal S8x256x256 .f32) (p : Fin 8) :
    matOf (k1_pay10 (F := Ideal) x0) p = z1 (normed (matOf x0 p)) := by
  unfold k1_pay10
  rw [matOf_bmm, matOf_pay8, matOf_pay6]
  rfl

theorem matOf_pay11 (x0 : Vec Ideal S8x256x256 .f32) (p : Fin 8) :
    matOf (k1_pay11 (F := Ideal) x0) p = zyNext (y1 (normed (matOf x0 p))) (z1 (normed (matOf x0 p))) := by
  unfold k1_pay11
  rw [matOf_half, matOf_bmm, matOf_subf, matOf_pay5, matOf_pay10, matOf_pay9]
  rfl

/-! ### The second half: two more rounds, the closing step, the column means and the first dense layer -/

/-- From the pair after one round (and the next round's ZY), the closing step's matrix:
    two more rounds and the closing products, image by image. -/
theorem pay12_apply (v5 : FVec Ideal S8x1x1 .f32) (v18 v33 v36 v42 : FVec Ideal S8x256x256 .f32)
    (v77 : Vec Ideal S32x256 .f32) (v81 : Vec Ideal S1x32 .f32) (p : Fin 8) (C : Mat)
    (h5 : v5 (ix3 p (0 : Fin 1) (0 : Fin 1)) = total C) (h18 : matOf v18 p = eye3)
    (h33 : matOf v33 p = y1 (normed C)) (h36 : matOf v36 p = z1 (normed C))
    (h42 : matOf v42 p = zyNext (y1 (normed C)) (z1 (normed C))) (a : Fin 32) :
    k1_pay12 (F := Ideal) v5 v18 v33 v36 v42 v77 v81 (ix2 p a)
      = (∑ k : Fin 256, colMean C k * v77 (ix2 a k)) + v81 (ix2 (0 : Fin 1) a) := by
  unfold k1_pay12
  rw [addf_apply, broadcastTo_1b_ab_apply, shapeCast_self]
  refine congrArg (· + v81 (ix2 (0 : Fin 1) a)) ?_
  refine (DL1_apply _ _ p a).trans ?_
  refine Finset.sum_congr rfl fun k _ => ?_
  rw [truncf_apply, transpose_ix2_apply, truncf_apply]
  refine congrArg (· * v77 (ix2 a k)) ?_
  rw [divf_apply, broadcast_apply]
  unfold colMean
  refine congrArg (fun s => Ideal.div s c256) ?_
  refine (red_mid _ _ _ _ p k).trans ?_
  refine Finset.sum_congr rfl fun i _ => ?_
  rw [mulf_apply, bcast_scalar]
  show matOf _ p i k * Ideal.sqrt (v5 (ix3 p (0 : Fin 1) (0 : Fin 1))) = covSqrt C i k
  rw [h5]
  unfold covSqrt
  refine congrArg (fun m : Mat => m i k * Ideal.sqrt (total C)) ?_
  simp only [matOf_bmm, matOf_half, matOf_subf, h18, h33, h36, h42]
  rfl

/-! ### The rectifier, the second dense layer and the logistic function -/

theorem pay1_apply (v84 v85 : FVec Ideal S8x32 .f32) (v88 : Vec Ideal S256x32 .f32) (v92 : Vec Ideal S1x256 .f32)
    (p : Fin 8) (ch : Fin 256) :
    k1_pay1 (F := Ideal) v84 v85 v88 v92 (ix2 p ch)
      = Ideal.logistic ((∑ a : Fin 32, max (v84 (ix2 p a)) (v85 (ix2 p a)) * v88 (ix2 ch a)) + v92 (ix2 (0 : Fin 1) ch)) := by
  unfold k1_pay1
  show Ideal.logistic _ = _
  refine congrArg Ideal.logistic ?_
  rw [addf_apply, broadcastTo_1b_ab_apply, shapeCast_self]
  refine congrArg (· + v92 (ix2 (0 : Fin 1) ch)) ?_
  refine (DL2_apply _ _ p ch).trans ?_
  refine Finset.sum_congr rfl fun a _ => ?_
  rw [truncf_apply, maximumf_apply, transpose_ix2_apply, truncf_apply]

end Cert.Soca.Kern

namespace Cert.Soca

open Idealize.ShloMosaic Idealize.ShloMosaic.ValueIdx Cert.KernelIdeal Cert.KernelIdeal.Gen
open Cert.Soca.Kern

/-- The kernel's gate at (image p of the block, channel ch) is the specification's gate of that image's covariance. -/
theorem gate_payload (x0 : Vec Ideal S8x256x256 .f32) (x1 : Vec Ideal S32x256 .f32) (x2 : Vec Ideal S1x32 .f32)
    (x3 : Vec Ideal S256x32 .f32) (x4 : Vec Ideal S1x256 .f32) (p : Fin 8) (ch : Fin 256) :
    k1_pay1 (F := Ideal) (k1_pay12 (k1_pay3 x0) k1_pay5 (k1_pay9 x0) (k1_pay10 x0) (k1_pay11 x0) x1 x2) k1_pay13 x3 x4 (ix2 p ch)
      = gateRow (fun i j => x0 (ix3 p i j)) (fun a k => x1 (ix2 a k)) (fun a => x2 (ix2 (0 : Fin 1) a))
          (fun c a => x3 (ix2 c a)) (fun c => x4 (ix2 (0 : Fin 1) c)) ch := by
  rw [pay1_apply]
  unfold gateRow gateOf
  refine congrArg Ideal.logistic (congrArg (· + x4 (ix2 (0 : Fin 1) ch)) (Finset.sum_congr rfl fun a _ => ?_))
  refine congrArg (· * x3 (ix2 ch a)) ?_
  rw [pay12_apply (k1_pay3 x0) k1_pay5 (k1_pay9 x0) (k1_pay10 x0) (k1_pay11 x0) x1 x2 p (matOf x0 p)
    (pay3_apply x0 p) (matOf_pay5 p) (matOf_pay9 x0 p) (matOf_pay10 x0 p) (matOf_pay11 x0 p) a]
  rfl

end Cert.Soca

end
-- ==== Proof.KernelRun.lean ====
/-
  The kernel's run with its result named.

  The program is three pipelined calls among host reshapes. Along any weakly fair execution the contents of every buffer
  at each boundary between these segments are determined: a host stretch applies its operations, a pipelined call leaves
  each of its arrays at the fold of its write-backs and every other buffer as it was. The last of these boundary contents
  is `Gen.W5`. So the run ends with the result array at `Gen.W5` read at the result's buffer, and with every argument
  array as launched.
-/
import proofs.«177194_j90701119357020_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array then holds the last
    boundary's contents at its buffer, and the five argument arrays hold what they were launched with. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Out

end
-- ==== Proof.KernelBoundaries.lean ====
/-
  What each call finds in its input arrays, and where the result is.

  The program is: a reshape of the input to [32, 256, 4096]; the covariance call; reshapes of the two bias vectors to
  one-row matrices; the gate call; the scaling call. No host operation and no call writes an argument array, and each
  call writes only its own output array. Hence:
    * the covariance call reads the reshaped input;
    * the gate call reads the covariance array as the first call left it, the two weight matrices as launched, and
      the two reshaped bias vectors;
    * the scaling call reads the input as launched and the gate array as the second call left it;
    * the result buffer ends as the third call left it.
-/
import proofs.«177194_j90701119357020_1_alg».proof.Proof.Gen.KernelIdeal.Frame
import Idealize.ShloMosaic.Lib.StableHlo.Run
import Idealize.ShloMosaic.Lib.Pipeline.Value
import Idealize.ShloMosaic.PureOps.Ideal

set_option maxRecDepth 16384
noncomputable section
namespace Cert.Soca
open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The covariance call reads the input reshaped to images × channels × pixels. -/
theorem entry0_x (c : Dev nD) :
    (V1 m ρ c main_v0 : S32x256x4096.Idx → EReal)
      = shapeCast S32x256x4096 (m ((c : Thread nD τ).loc main_arg0)) shapeCasts_S32x256x64x64_S32x256x4096 := by
  dsimp only [V1, W1, hostOps0]
  after_results
  rfl

/-- After the first call, a bias vector's buffer still holds what it was launched with. -/
theorem mid_b1 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem mid_b2 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The gate call reads the covariance array as the first call left it: the reshapes between do not write it. -/
theorem entry1_cov (c : Dev nD) : V3 m ρ c main_v1 = (dat0 (V1 m ρ) c).arrAt 1 cfg0.N :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 1 cfg0.N := W2_arr m ρ c 1

/-- The gate call reads the first layer's weights as launched. -/
theorem entry1_w1 (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans
    ((W5_of_ne m ρ c main_arg1 (by decide)).symm.trans (W5_main_arg1 m ρ c))

/-- The gate call reads the second layer's weights as launched. -/
theorem entry1_w2 (c : Dev nD) : V3 m ρ c main_arg3 = m ((c : Thread nD τ).loc main_arg3) :=
  ((W4_arr m ρ c 3).trans (((dat1 (V3 m ρ) c).arrAt_in 3 rfl _).trans (A_eq1 (V3 m ρ) c 3))).symm.trans
    ((W5_of_ne m ρ c main_arg3 (by decide)).symm.trans (W5_main_arg3 m ρ c))

/-- The gate call reads the first bias as a one-row matrix. -/
theorem entry1_b1 (c : Dev nD) :
    (V3 m ρ c main_v2 : S1x32.Idx → EReal) = shapeCast S1x32 (m ((c : Thread nD τ).loc main_arg2)) shapeCasts_S32_S1x32 := by
  rw [← mid_b1 m ρ c]
  dsimp only [V3, W3, hostOps1]
  after_results
  rfl

/-- The gate call reads the second bias as a one-row matrix. -/
theorem entry1_b2 (c : Dev nD) :
    (V3 m ρ c main_v3 : S1x256.Idx → EReal) = shapeCast S1x256 (m ((c : Thread nD τ).loc main_arg4)) shapeCasts_S256_S1x256 := by
  rw [← mid_b2 m ρ c]
  dsimp only [V3, W3, hostOps1]
  after_results
  rfl

/-- The scaling call reads the gate array as the second call left it. -/
theorem entry2_gate (c : Dev nD) : V4 m ρ c main_v4 = (dat1 (V3 m ρ) c).arrAt 5 cfg1.N := W4_arr m ρ c 5

/-- The scaling call reads the input as launched. -/
theorem entry2_x (c : Dev nD) : V4 m ρ c main_arg0 = m ((c : Thread nD τ).loc main_arg0) :=
  ((W5_arr m ρ c 0).trans (((dat2 (V4 m ρ) c).arrAt_in 0 rfl _).trans (A_eq2 (V4 m ρ) c 0))).symm.trans (W5_main_arg0 m ρ c)

/-- The result buffer ends as the scaling call left it. -/
theorem exit_out (c : Dev nD) : W5 m ρ c (Proc.devRef .tc main_v5) = (dat2 (V4 m ρ) c).arrAt 2 cfg2.N := W5_arr m ρ c 2

end Cert.Soca
end
-- ==== Proof.KernelCovArray.lean ====
/-
  The first call: the covariance array.

  The call's grid has one point per image. At point `t` the input window's block is image `t` of the [32, 256, 4096]
  array, whole in its other two axes, and the output window's block is image `t` of the [32, 256, 256] covariance
  array. The body stores, for that image, the covariance of its channels. The 32 output blocks tile the output array,
  so after the call the array holds every image's covariance at its place.
-/
import proofs.«177194_j90701119357020_1_alg».proof.Proof.Gen.KernelIdeal.Frame
import proofs.«177194_j90701119357020_1_alg».proof.Proof.Spec
import Idealize.ShloMosaic.Lib.Pipeline.Value
import Idealize.ShloMosaic.Lib.ValueIdx

set_option maxRecDepth 16384
noncomputable section
namespace Cert.Soca
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- The covariance array of a batch: image `b`'s covariance at its place. -/
def covArr (A0 : S32x256x4096.Idx → EReal) : S32x256x256.Idx → EReal :=
  fun i => covMat (fun c m => A0 (ix3 (i 0) c m)) (i 1) (i 2)

theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The payload of one image, read entry by entry, when the loaded block is image `b` of the array. -/
theorem cov_point
    (hpay : ∀ (x0 : Vec Ideal S1x256x4096 .f32) (c d : Fin 256),
      k0_pay1 (F := Ideal) x0 (ix3 0 c d) = covMat (fun c m => x0 (ix3 0 c m)) c d)
    (A0 : S32x256x4096.Idx → EReal) (x0 : Vec Ideal S1x256x4096 .f32) (b : Fin 32)
    (hx : ∀ (c : Fin 256) (m : Fin 4096), x0 (ix3 0 c m) = A0 (ix3 b c m)) (j : S1x256x256.Idx) :
    k0_pay1 (F := Ideal) x0 j = covArr A0 (ix3 b (j 1) (j 2)) := by
  obtain ⟨p, q, r, rfl⟩ : ∃ (p : Fin 1) (q : Fin 256) (r : Fin 256), j = ix3 p q r := ⟨j 0, j 1, j 2, eq_ix3 j⟩
  have hp : p = 0 := Subsingleton.elim _ _
  subst hp
  show k0_pay1 (F := Ideal) x0 (ix3 0 q r) = covMat (fun c m => A0 (ix3 b c m)) q r
  rw [hpay]
  exact congrArg (fun X => covMat X q r) (funext fun c => funext fun m => hx c m)

/-- An index of the array is in point `t`'s block iff each coordinate is in the block's range on its axis. -/
theorem cov_mem_blk (t : Fin cfg0.N) (i : S32x256x256.Idx) :
    i ∈ ((cfg0.win 1).blk t).view.set ↔ ∀ a : Fin 3, win0_1.index t a * S1x256x256.size a ≤ (i a).val ∧ (i a).val < win0_1.index t a * S1x256x256.size a + S1x256x256.size a := by
  show i ∈ ((View.whole main_v1).slice (win0_1.rect t)).set ↔ _
  rw [View.set_slice_whole, Rect.mem_set_unit]
  exact Iff.rfl

/-- Every entry of the covariance array lies in the block of the grid point of its image. -/
theorem cov_cover (i : S32x256x256.Idx) :
    ∃ t : Fin cfg0.N, (cfg0.win 1).flush t = true ∧ i ∈ ((cfg0.win 1).blk t).view.set := by
  refine ⟨⟨(i 0).val, (i 0).isLt⟩, flush0_1 _, ?_⟩
  rw [cov_mem_blk]
  obtain ⟨a0, a1, a2, a3, a4, a5⟩ := idx0 ⟨(i 0).val, (i 0).isLt⟩
  have h1 : (i 1).val < 256 := (i 1).isLt
  have h2 : (i 2).val < 256 := (i 2).isLt
  intro a
  match a with
  | ⟨0, _⟩ => show win0_1.index ⟨(i 0).val, (i 0).isLt⟩ (0 : Fin 3) * 1 ≤ (i 0).val ∧ (i 0).val < win0_1.index ⟨(i 0).val, (i 0).isLt⟩ (0 : Fin 3) * 1 + 1; simp only [a3] at *; omega
  | ⟨1, _⟩ => show win0_1.index ⟨(i 0).val, (i 0).isLt⟩ (1 : Fin 3) * 256 ≤ (i 1).val ∧ (i 1).val < win0_1.index ⟨(i 0).val, (i 0).isLt⟩ (1 : Fin 3) * 256 + 256; omega
  | ⟨2, _⟩ => show win0_1.index ⟨(i 0).val, (i 0).isLt⟩ (2 : Fin 3) * 256 ≤ (i 2).val ∧ (i 2).val < win0_1.index ⟨(i 0).val, (i 0).isLt⟩ (2 : Fin 3) * 256 + 256; omega

variable (hpay : ∀ (x0 : Vec Ideal S1x256x4096 .f32) (c d : Fin 256),
      k0_pay1 (F := Ideal) x0 (ix3 0 c d) = covMat (fun c m => x0 (ix3 0 c m)) c d)
include hpay

/-- What grid point `t` writes back is block `t` of the covariance array of the input array as the call finds it. -/
theorem cov_flushed (c : Dev nD) (t : Fin cfg0.N) :
    (dat0 V c).flushed 1 t = ((cfg0.win 1).blk t).view.read (Elt Ideal) (covArr (V c main_v0)) := by
  show (cfg0.win 1).cut (grid0.coords t) ((dat0 V c).after 1 t) = _
  rw [after0_1]
  unfold out0_1
  rw [View.canon_unit_zero zero3]
  simp only [View.ld_unit_zero (S := S1x256x4096) zero3]
  funext j
  show k0_pay1 (iblk0 V c 0 t) j = covArr (V c main_v0) (((cfg0.win 1).blk t).view.emb j)
  obtain ⟨a0, a1, a2, a3, a4, a5⟩ := idx0 t
  have e1 : ((cfg0.win 1).blk t).view.emb j = ix3 ⟨t.val, t.isLt⟩ (j 1) (j 2) := by
    funext a; apply Fin.ext
    match a with
    | ⟨0, _⟩ => show win0_1.index t (0 : Fin 3) * 1 + 1 * (j 0).val = t.val; have hj : (j 0).val < 1 := (j 0).isLt; omega
    | ⟨1, _⟩ => show win0_1.index t (1 : Fin 3) * 256 + 1 * (j 1).val = (j 1).val; omega
    | ⟨2, _⟩ => show win0_1.index t (2 : Fin 3) * 256 + 1 * (j 2).val = (j 2).val; omega
  rw [e1]
  refine cov_point hpay (V c main_v0) (iblk0 V c 0 t) ⟨t.val, t.isLt⟩ (fun c' m => ?_) j
  show V c main_v0 (((cfg0.win 0).blk t).view.emb (ix3 0 c' m)) = V c main_v0 (ix3 ⟨t.val, t.isLt⟩ c' m)
  refine congrArg (V c main_v0) ?_
  funext a; apply Fin.ext
  match a with
  | ⟨0, _⟩ => show win0_0.index t (0 : Fin 3) * 1 + 1 * 0 = t.val; omega
  | ⟨1, _⟩ => show win0_0.index t (1 : Fin 3) * 256 + 1 * c'.val = c'.val; omega
  | ⟨2, _⟩ => show win0_0.index t (2 : Fin 3) * 4096 + 1 * m.val = m.val; omega

/-- After the first call the covariance buffer holds the covariance array of the input array as the call found it. -/
theorem cov_array (c : Dev nD) : (dat0 V c).arrAt 1 cfg0.N = covArr (V c main_v0) :=
  (dat0 V c).arrAt_eq_of_cover 1 (covArr (V c main_v0)) (fun t _ => cov_flushed V hpay c t) cov_cover

end Cert.Soca
end
-- ==== Proof.KernelGateArray.lean ====
/-
  The second call: the gate array.

  The call's grid has four points. At point `t` the first window's block is images 8t … 8t+7 of the covariance
  array; the two weight matrices and the two one-row bias matrices are read whole at every point; the output window's
  block is rows 8t … 8t+7 of the [32, 256] gate array. The body stores, for each of its eight images, the channel gate
  of that image's covariance. The four output blocks tile the gate array, so after the call the array holds every
  image's gate at its place.
-/
import proofs.«177194_j90701119357020_1_alg».proof.Proof.Gen.KernelIdeal.Frame
import proofs.«177194_j90701119357020_1_alg».proof.Proof.Spec
import Idealize.ShloMosaic.Lib.Pipeline.Value
import Idealize.ShloMosaic.Lib.ValueIdx

set_option maxRecDepth 16384
noncomputable section
namespace Cert.Soca
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero3' : (![0, 0, 0] : Fin 3 → Nat) = fun _ => 0 := funext fun a => by fin_cases a <;> rfl
theorem zero2 : (![0, 0] : Fin 2 → Nat) = fun _ => 0 := funext fun a => by fin_cases a <;> rfl

/-- The gate array of a batch: image `b`'s channel gate, from its covariance and the layers' weights, in row `b`. -/
def gateArr (C : S32x256x256.Idx → EReal) (w1 : S32x256.Idx → EReal) (b1 : S1x32.Idx → EReal)
    (w2 : S256x32.Idx → EReal) (b2 : S1x256.Idx → EReal) : S32x256.Idx → EReal :=
  fun i => gateRow (fun r s => C (ix3 (i 0) r s)) (fun a k => w1 (ix2 a k)) (fun a => b1 (ix2 0 a))
    (fun ch a => w2 (ix2 ch a)) (fun ch => b2 (ix2 0 ch)) (i 1)

/-- The body's stored value as one term of its five loaded blocks. -/
abbrev gatePay (x0 : Vec Ideal S8x256x256 .f32) (x1 : Vec Ideal S32x256 .f32) (x2 : Vec Ideal S1x32 .f32)
    (x3 : Vec Ideal S256x32 .f32) (x4 : Vec Ideal S1x256 .f32) : FVec Ideal S8x256 .f32 :=
  k1_pay1 (F := Ideal) (k1_pay12 (k1_pay3 x0) (k1_pay5 (F := Ideal)) (k1_pay9 x0) (k1_pay10 x0) (k1_pay11 x0) x1 x2)
    (k1_pay13 (F := Ideal)) x3 x4

/-- The hypothesis the arithmetic side supplies: the stored value of image `p` of the block at channel `ch`. -/
abbrev GatePayload : Prop :=
  ∀ (x0 : Vec Ideal S8x256x256 .f32) (x1 : Vec Ideal S32x256 .f32) (x2 : Vec Ideal S1x32 .f32)
    (x3 : Vec Ideal S256x32 .f32) (x4 : Vec Ideal S1x256 .f32) (p : Fin 8) (ch : Fin 256),
    gatePay x0 x1 x2 x3 x4 (ix2 p ch)
      = gateRow (fun i j => x0 (ix3 p i j)) (fun a k => x1 (ix2 a k)) (fun a => x2 (ix2 0 a))
          (fun c a => x3 (ix2 c a)) (fun c => x4 (ix2 0 c)) ch

/-- The stored value read entry by entry, when the loaded blocks are eight images of the covariance array (image `p`
    of the block being image `bOf p` of the array) and the four small arrays whole. -/
theorem gate_point (hpay : GatePayload)
    (C : S32x256x256.Idx → EReal) (w1 : S32x256.Idx → EReal) (b1 : S1x32.Idx → EReal)
    (w2 : S256x32.Idx → EReal) (b2 : S1x256.Idx → EReal)
    (x0 : Vec Ideal S8x256x256 .f32) (x1 : Vec Ideal S32x256 .f32) (x2 : Vec Ideal S1x32 .f32)
    (x3 : Vec Ideal S256x32 .f32) (x4 : Vec Ideal S1x256 .f32) (bOf : Fin 8 → Fin 32)
    (h0 : ∀ (p : Fin 8) (r s : Fin 256), x0 (ix3 p r s) = C (ix3 (bOf p) r s))
    (h1 : ∀ (a : Fin 32) (k : Fin 256), x1 (ix2 a k) = w1 (ix2 a k))
    (h2 : ∀ a : Fin 32, x2 (ix2 0 a) = b1 (ix2 0 a))
    (h3 : ∀ (ch : Fin 256) (a : Fin 32), x3 (ix2 ch a) = w2 (ix2 ch a))
    (h4 : ∀ ch : Fin 256, x4 (ix2 0 ch) = b2 (ix2 0 ch)) (j : S8x256.Idx) :
    gatePay x0 x1 x2 x3 x4 j = gateArr C w1 b1 w2 b2 (ix2 (bOf (j 0)) (j 1)) := by
  obtain ⟨p, ch, rfl⟩ : ∃ (p : Fin 8) (ch : Fin 256), j = ix2 p ch := ⟨j 0, j 1, eq_ix2 j⟩
  show gatePay x0 x1 x2 x3 x4 (ix2 p ch)
    = gateRow (fun r s => C (ix3 (bOf p) r s)) (fun a k => w1 (ix2 a k)) (fun a => b1 (ix2 0 a))
        (fun ch a => w2 (ix2 ch a)) (fun ch => b2 (ix2 0 ch)) ch
  rw [hpay]
  have e0 : (fun i j => x0 (ix3 p i j)) = fun r s => C (ix3 (bOf p) r s) := funext fun r => funext fun s => h0 p r s
  have e1 : (fun a k => x1 (ix2 a k)) = fun a k => w1 (ix2 a k) := funext fun a => funext fun k => h1 a k
  have e2 : (fun a => x2 (ix2 0 a)) = fun a => b1 (ix2 0 a) := funext fun a => h2 a
  have e3 : (fun c a => x3 (ix2 c a)) = fun ch a => w2 (ix2 ch a) := funext fun c => funext fun a => h3 c a
  have e4 : (fun c => x4 (ix2 0 c)) = fun ch => b2 (ix2 0 ch) := funext fun c => h4 c
  rw [e0, e1, e2, e3, e4]

theorem idx1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An index of the gate array is in point `t`'s block iff each coordinate is in the block's range on its axis. -/
theorem gate_mem_blk (t : Fin cfg1.N) (i : S32x256.Idx) :
    i ∈ ((cfg1.win 5).blk t).view.set ↔ ∀ a : Fin 2, win1_5.index t a * S8x256.size a ≤ (i a).val ∧ (i a).val < win1_5.index t a * S8x256.size a + S8x256.size a := by
  show i ∈ ((View.whole main_v4).slice (win1_5.rect t)).set ↔ _
  rw [View.set_slice_whole, Rect.mem_set_unit]
  exact Iff.rfl

/-- Every entry of the gate array lies in the block of the grid point of its image's group of eight. -/
theorem gate_cover (i : S32x256.Idx) :
    ∃ t : Fin cfg1.N, (cfg1.win 5).flush t = true ∧ i ∈ ((cfg1.win 5).blk t).view.set := by
  have h0 : (i 0).val < 32 := (i 0).isLt
  have h1 : (i 1).val < 256 := (i 1).isLt
  refine ⟨⟨(i 0).val / 8, by show (i 0).val / 8 < 4; omega⟩, flush1_5 _, ?_⟩
  rw [gate_mem_blk]
  obtain ⟨-, -, -, -, -, -, -, -, -, -, -, a5, a6⟩ := idx1 ⟨(i 0).val / 8, by show (i 0).val / 8 < 4; omega⟩
  intro a
  match a with
  | ⟨0, _⟩ => show win1_5.index _ (0 : Fin 2) * 8 ≤ (i 0).val ∧ (i 0).val < win1_5.index _ (0 : Fin 2) * 8 + 8; rw [a5]; show (i 0).val / 8 * 8 ≤ (i 0).val ∧ (i 0).val < (i 0).val / 8 * 8 + 8; omega
  | ⟨1, _⟩ => show win1_5.index _ (1 : Fin 2) * 256 ≤ (i 1).val ∧ (i 1).val < win1_5.index _ (1 : Fin 2) * 256 + 256; rw [a6]; omega

variable (hpay : GatePayload)
include hpay

/-- What grid point `t` writes back is block `t` of the gate array of the five input arrays as the call finds them. -/
theorem gate_flushed (c : Dev nD) (t : Fin cfg1.N) :
    (dat1 V c).flushed 5 t = ((cfg1.win 5).blk t).view.read (Elt Ideal)
      (gateArr (V c main_v1) (V c main_arg1) (V c main_v2) (V c main_arg3) (V c main_v3)) := by
  show (cfg1.win 5).cut (grid1.coords t) ((dat1 V c).after 5 t) = _
  rw [after1_5]
  unfold out1_5
  rw [View.canon_unit_zero zero2]
  simp only [View.ld_unit_zero (S := S8x256x256) zero3', View.ld_unit_zero (S := S32x256) zero2,
    View.ld_unit_zero (S := S1x32) zero2, View.ld_unit_zero (S := S256x32) zero2, View.ld_unit_zero (S := S1x256) zero2]
  funext j
  show gatePay (iblk1 V c 0 t) (iblk1 V c 1 t) (iblk1 V c 2 t) (iblk1 V c 3 t) (iblk1 V c 4 t) j
    = gateArr (V c main_v1) (V c main_arg1) (V c main_v2) (V c main_arg3) (V c main_v3) (((cfg1.win 5).blk t).view.emb j)
  obtain ⟨a0, a1, a2, a3, a4, a5, a6, a7, a8, a9, a10, a11, a12⟩ := idx1 t
  have ht : t.val < 4 := t.isLt
  have e5 : ((cfg1.win 5).blk t).view.emb j = ix2 (⟨t.val * 8 + (j 0).val, by have hj0 : (j 0).val < 8 := (j 0).isLt; omega⟩ : Fin 32) (j 1) := by
    funext a; apply Fin.ext
    match a with
    | ⟨0, _⟩ => show win1_5.index t (0 : Fin 2) * 8 + 1 * (j 0).val = t.val * 8 + (j 0).val; omega
    | ⟨1, _⟩ => show win1_5.index t (1 : Fin 2) * 256 + 1 * (j 1).val = (j 1).val; omega
  rw [e5]
  refine gate_point hpay (V c main_v1) (V c main_arg1) (V c main_v2) (V c main_arg3) (V c main_v3)
    (iblk1 V c 0 t) (iblk1 V c 1 t) (iblk1 V c 2 t) (iblk1 V c 3 t) (iblk1 V c 4 t)
    (fun p => ⟨t.val * 8 + p.val, by have := p.isLt; omega⟩) (fun p r s => ?_) (fun a k => ?_) (fun a => ?_) (fun ch a => ?_) (fun ch => ?_) j
  · show V c main_v1 (((cfg1.win 0).blk t).view.emb (ix3 p r s)) = V c main_v1 (ix3 ⟨t.val * 8 + p.val, _⟩ r s)
    refine congrArg (V c main_v1) ?_
    funext a; apply Fin.ext
    match a with
    | ⟨0, _⟩ => show win1_0.index t (0 : Fin 3) * 8 + 1 * p.val = t.val * 8 + p.val; omega
    | ⟨1, _⟩ => show win1_0.index t (1 : Fin 3) * 256 + 1 * r.val = r.val; omega
    | ⟨2, _⟩ => show win1_0.index t (2 : Fin 3) * 256 + 1 * s.val = s.val; omega
  · show V c main_arg1 (((cfg1.win 1).blk t).view.emb (ix2 a k)) = V c main_arg1 (ix2 a k)
    refine congrArg (V c main_arg1) ?_
    funext d; apply Fin.ext
    match d with
    | ⟨0, _⟩ => show win1_1.index t (0 : Fin 2) * 32 + 1 * a.val = a.val; omega
    | ⟨1, _⟩ => show win1_1.index t (1 : Fin 2) * 256 + 1 * k.val = k.val; omega
  · show V c main_v2 (((cfg1.win 2).blk t).view.emb (ix2 0 a)) = V c main_v2 (ix2 0 a)
    refine congrArg (V c main_v2) ?_
    funext d; apply Fin.ext
    match d with
    | ⟨0, _⟩ => show win1_2.index t (0 : Fin 2) * 1 + 1 * 0 = 0; omega
    | ⟨1, _⟩ => show win1_2.index t (1 : Fin 2) * 32 + 1 * a.val = a.val; omega
  · show V c main_arg3 (((cfg1.win 3).blk t).view.emb (ix2 ch a)) = V c main_arg3 (ix2 ch a)
    refine congrArg (V c main_arg3) ?_
    funext d; apply Fin.ext
    match d with
    | ⟨0, _⟩ => show win1_3.index t (0 : Fin 2) * 256 + 1 * ch.val = ch.val; omega
    | ⟨1, _⟩ => show win1_3.index t (1 : Fin 2) * 32 + 1 * a.val = a.val; omega
  · show V c main_v3 (((cfg1.win 4).blk t).view.emb (ix2 0 ch)) = V c main_v3 (ix2 0 ch)
    refine congrArg (V c main_v3) ?_
    funext d; apply Fin.ext
    match d with
    | ⟨0, _⟩ => show win1_4.index t (0 : Fin 2) * 1 + 1 * 0 = 0; omega
    | ⟨1, _⟩ => show win1_4.index t (1 : Fin 2) * 256 + 1 * ch.val = ch.val; omega

/-- After the second call the gate buffer holds the gate array of the five input arrays as the call found them. -/
theorem gate_array (c : Dev nD) :
    (dat1 V c).arrAt 5 cfg1.N = gateArr (V c main_v1) (V c main_arg1) (V c main_v2) (V c main_arg3) (V c main_v3) :=
  (dat1 V c).arrAt_eq_of_cover 5 _ (fun t _ => gate_flushed V hpay c t) gate_cover

end Cert.Soca
end
-- ==== Proof.KernelScaleArray.lean ====
/-
  The third call: the gate applied to the input.

  The call's grid is 4 × 8. At the point with coordinates (u, v) the input window's block is images 8u … 8u+7 and
  image rows 8v … 8v+7 of the input (all channels, all columns), the gate window's block is rows 8u … 8u+7 of the gate
  array, and the output window's block sits where the input's does. The body stores the input block with every entry
  multiplied by its image's and channel's gate. The 32 output blocks tile the result array, so after the call the
  result holds, entry by entry, the gate of the entry's image and channel times the input.
-/
import proofs.«177194_j90701119357020_1_alg».proof.Proof.Gen.KernelIdeal.Frame
import Idealize.ShloMosaic.Lib.Pipeline.Value
import Idealize.ShloMosaic.Lib.ValueIdx
import Idealize.ShloMosaic.PureOps.Ideal

set_option maxRecDepth 16384
noncomputable section
namespace Cert.Soca
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero4 : (![0, 0, 0, 0] : Fin 4 → Nat) = fun _ => 0 := funext fun a => by fin_cases a <;> rfl
theorem zero2' : (![0, 0] : Fin 2 → Nat) = fun _ => 0 := funext fun a => by fin_cases a <;> rfl

/-- The result array: every entry of the input times the gate of its image and channel. -/
def scaleArr (X : S32x256x64x64.Idx → EReal) (g : S32x256.Idx → EReal) : S32x256x64x64.Idx → EReal :=
  fun i => g (ix2 (i 0) (i 1)) * X i

/-- The body's stored value, entry by entry: the gate of the entry's image and channel, spread over the block's rows
    and columns, times the input entry. -/
theorem scale_payload (g : Vec Ideal S8x256 .f32) (x : Vec Ideal S8x256x8x64 .f32) (p : Fin 8) (ch : Fin 256) (h : Fin 8) (w : Fin 64) :
    k2_pay1 (F := Ideal) g x (ix4 p ch h w) = g (ix2 p ch) * x (ix4 p ch h w) := by
  unfold k2_pay1
  show broadcastTo S8x256x8x64 (shapeCast S8x256x1x1 (shapeCast S8x256x1x1 (shapeCast S8x256 g shapeCasts_S8x256_S8x256) shapeCasts_S8x256_S8x256x1x1) shapeCasts_S8x256x1x1_S8x256x1x1) broadcasts_S8x256x1x1_S8x256x8x64 (ix4 p ch h w) * x (ix4 p ch h w) = _
  refine congrArg (· * x (ix4 p ch h w)) ?_
  rw [broadcastTo_apply _ _ _ (ix4 p ch (0 : Fin 1) (0 : Fin 1)) (fun a => by
    match a with
    | ⟨0, _⟩ => rfl
    | ⟨1, _⟩ => rfl
    | ⟨2, _⟩ => rfl
    | ⟨3, _⟩ => rfl)]
  rw [shapeCast_self, shapeCast_self]
  exact shapeCast_apply _ _ _ _ (by
    rw [Shape.rowMajor_val_two, Shape.rowMajor_val_four]
    show p.val * 256 + ch.val = ((p.val * 256 + ch.val) * 1 + 0) * 1 + 0
    omega)

/-- The stored value when the loaded blocks are eight images by eight image rows of the input (image `p` and row
    `h` of the block being image `bOf p` and row `hOf h` of the array) and the same eight rows of the gate array. -/
theorem scale_point (X : S32x256x64x64.Idx → EReal) (g : S32x256.Idx → EReal)
    (x : Vec Ideal S8x256x8x64 .f32) (gb : Vec Ideal S8x256 .f32) (bOf : Fin 8 → Fin 32) (hOf : Fin 8 → Fin 64)
    (hx : ∀ (p : Fin 8) (ch : Fin 256) (h : Fin 8) (w : Fin 64), x (ix4 p ch h w) = X (ix4 (bOf p) ch (hOf h) w))
    (hg : ∀ (p : Fin 8) (ch : Fin 256), gb (ix2 p ch) = g (ix2 (bOf p) ch)) (j : S8x256x8x64.Idx) :
    k2_pay1 (F := Ideal) gb x j = scaleArr X g (ix4 (bOf (j 0)) (j 1) (hOf (j 2)) (j 3)) := by
  obtain ⟨p, ch, h, w, rfl⟩ : ∃ (p : Fin 8) (ch : Fin 256) (h : Fin 8) (w : Fin 64), j = ix4 p ch h w := ⟨j 0, j 1, j 2, j 3, eq_ix4 j⟩
  show k2_pay1 (F := Ideal) gb x (ix4 p ch h w) = g (ix2 (bOf p) ch) * X (ix4 (bOf p) ch (hOf h) w)
  rw [scale_payload, hx, hg]

theorem idx2 : ∀ t : Fin cfg2.N, win2_0.index t (0 : Fin 4) = t.val / 8 ∧ win2_0.index t (1 : Fin 4) = 0 ∧ win2_0.index t (2 : Fin 4) = t.val % 8 ∧ win2_0.index t (3 : Fin 4) = 0
    ∧ win2_1.index t (0 : Fin 2) = t.val / 8 ∧ win2_1.index t (1 : Fin 2) = 0
    ∧ win2_2.index t (0 : Fin 4) = t.val / 8 ∧ win2_2.index t (1 : Fin 4) = 0 ∧ win2_2.index t (2 : Fin 4) = t.val % 8 ∧ win2_2.index t (3 : Fin 4) = 0 :=
  (by decide +kernel : ∀ t : Fin grid2.N, _)

/-- An index of the result array is in point `t`'s block iff each coordinate is in the block's range on its axis. -/
theorem scale_mem_blk (t : Fin cfg2.N) (i : S32x256x64x64.Idx) :
    i ∈ ((cfg2.win 2).blk t).view.set ↔ ∀ a : Fin 4, win2_2.index t a * S8x256x8x64.size a ≤ (i a).val ∧ (i a).val < win2_2.index t a * S8x256x8x64.size a + S8x256x8x64.size a := by
  show i ∈ ((View.whole main_v5).slice (win2_2.rect t)).set ↔ _
  rw [View.set_slice_whole, Rect.mem_set_unit]
  exact Iff.rfl

/-- Every entry of the result lies in the block of the grid point of its group of images and its group of rows. -/
theorem scale_cover (i : S32x256x64x64.Idx) :
    ∃ t : Fin cfg2.N, (cfg2.win 2).flush t = true ∧ i ∈ ((cfg2.win 2).blk t).view.set := by
  have h0 : (i 0).val < 32 := (i 0).isLt
  have h1 : (i 1).val < 256 := (i 1).isLt
  have h2 : (i 2).val < 64 := (i 2).isLt
  have h3 : (i 3).val < 64 := (i 3).isLt
  have hT : (i 0).val / 8 * 8 + (i 2).val / 8 < 32 := by omega
  refine ⟨⟨(i 0).val / 8 * 8 + (i 2).val / 8, hT⟩, flush2_2 _, ?_⟩
  rw [scale_mem_blk]
  obtain ⟨-, -, -, -, -, -, a6, a7, a8, a9⟩ := idx2 ⟨(i 0).val / 8 * 8 + (i 2).val / 8, hT⟩
  have a6' : win2_2.index ⟨(i 0).val / 8 * 8 + (i 2).val / 8, hT⟩ (0 : Fin 4) = ((i 0).val / 8 * 8 + (i 2).val / 8) / 8 := a6
  have a8' : win2_2.index ⟨(i 0).val / 8 * 8 + (i 2).val / 8, hT⟩ (2 : Fin 4) = ((i 0).val / 8 * 8 + (i 2).val / 8) % 8 := a8
  intro a
  match a with
  | ⟨0, _⟩ => show win2_2.index _ (0 : Fin 4) * 8 ≤ (i 0).val ∧ (i 0).val < win2_2.index _ (0 : Fin 4) * 8 + 8; rw [a6']; omega
  | ⟨1, _⟩ => show win2_2.index _ (1 : Fin 4) * 256 ≤ (i 1).val ∧ (i 1).val < win2_2.index _ (1 : Fin 4) * 256 + 256; rw [a7]; omega
  | ⟨2, _⟩ => show win2_2.index _ (2 : Fin 4) * 8 ≤ (i 2).val ∧ (i 2).val < win2_2.index _ (2 : Fin 4) * 8 + 8; rw [a8']; omega
  | ⟨3, _⟩ => show win2_2.index _ (3 : Fin 4) * 64 ≤ (i 3).val ∧ (i 3).val < win2_2.index _ (3 : Fin 4) * 64 + 64; rw [a9]; omega

/-- What grid point `t` writes back is block `t` of the scaled input, of the input and gate arrays as the call finds them. -/
theorem scale_flushed (c : Dev nD) (t : Fin cfg2.N) :
    (dat2 V c).flushed 2 t = ((cfg2.win 2).blk t).view.read (Elt Ideal) (scaleArr (V c main_arg0) (V c main_v4)) := by
  show (cfg2.win 2).cut (grid2.coords t) ((dat2 V c).after 2 t) = _
  rw [after2_2]
  unfold out2_2
  rw [View.canon_unit_zero zero4]
  simp only [View.ld_unit_zero (S := S8x256x8x64) zero4, View.ld_unit_zero (S := S8x256) zero2']
  funext j
  show k2_pay1 (F := Ideal) (iblk2 V c 1 t) (iblk2 V c 0 t) j = scaleArr (V c main_arg0) (V c main_v4) (((cfg2.win 2).blk t).view.emb j)
  obtain ⟨a0, a1, a2, a3, a4, a5, a6, a7, a8, a9⟩ := idx2 t
  have ht : t.val < 32 := t.isLt
  have e2 : ((cfg2.win 2).blk t).view.emb j
      = ix4 (⟨t.val / 8 * 8 + (j 0).val, by have hj0 : (j 0).val < 8 := (j 0).isLt; omega⟩ : Fin 32) (j 1) (⟨t.val % 8 * 8 + (j 2).val, by have hj2 : (j 2).val < 8 := (j 2).isLt; omega⟩ : Fin 64) (j 3) := by
    funext a; apply Fin.ext
    match a with
    | ⟨0, _⟩ => show win2_2.index t (0 : Fin 4) * 8 + 1 * (j 0).val = t.val / 8 * 8 + (j 0).val; omega
    | ⟨1, _⟩ => show win2_2.index t (1 : Fin 4) * 256 + 1 * (j 1).val = (j 1).val; omega
    | ⟨2, _⟩ => show win2_2.index t (2 : Fin 4) * 8 + 1 * (j 2).val = t.val % 8 * 8 + (j 2).val; omega
    | ⟨3, _⟩ => show win2_2.index t (3 : Fin 4) * 64 + 1 * (j 3).val = (j 3).val; omega
  rw [e2]
  refine scale_point (V c main_arg0) (V c main_v4) (iblk2 V c 0 t) (iblk2 V c 1 t)
    (fun p => ⟨t.val / 8 * 8 + p.val, by have := p.isLt; omega⟩) (fun h => ⟨t.val % 8 * 8 + h.val, by have := h.isLt; omega⟩)
    (fun p ch h w => ?_) (fun p ch => ?_) j
  · show V c main_arg0 (((cfg2.win 0).blk t).view.emb (ix4 p ch h w)) = V c main_arg0 (ix4 ⟨t.val / 8 * 8 + p.val, _⟩ ch ⟨t.val % 8 * 8 + h.val, _⟩ w)
    refine congrArg (V c main_arg0) ?_
    funext a; apply Fin.ext
    match a with
    | ⟨0, _⟩ => show win2_0.index t (0 : Fin 4) * 8 + 1 * p.val = t.val / 8 * 8 + p.val; omega
    | ⟨1, _⟩ => show win2_0.index t (1 : Fin 4) * 256 + 1 * ch.val = ch.val; omega
    | ⟨2, _⟩ => show win2_0.index t (2 : Fin 4) * 8 + 1 * h.val = t.val % 8 * 8 + h.val; omega
    | ⟨3, _⟩ => show win2_0.index t (3 : Fin 4) * 64 + 1 * w.val = w.val; omega
  · show V c main_v4 (((cfg2.win 1).blk t).view.emb (ix2 p ch)) = V c main_v4 (ix2 ⟨t.val / 8 * 8 + p.val, _⟩ ch)
    refine congrArg (V c main_v4) ?_
    funext a; apply Fin.ext
    match a with
    | ⟨0, _⟩ => show win2_1.index t (0 : Fin 2) * 8 + 1 * p.val = t.val / 8 * 8 + p.val; omega
    | ⟨1, _⟩ => show win2_1.index t (1 : Fin 2) * 256 + 1 * ch.val = ch.val; omega

/-- After the third call the result buffer holds the input scaled by the gate array, of both as the call found them. -/
theorem scale_array (c : Dev nD) : (dat2 V c).arrAt 2 cfg2.N = scaleArr (V c main_arg0) (V c main_v4) :=
  (dat2 V c).arrAt_eq_of_cover 2 _ (fun t _ => scale_flushed V c t) scale_cover

end Cert.Soca
end
-- ==== Proof.KernelValue.lean ====
/-
  The kernel's result as one function of the five argument arrays.

  Chaining the three calls: the result is the input scaled by the gate array; the gate array is computed from the
  covariance array, the two weight matrices and the two biases read as one-row matrices; the covariance array is
  computed from the input read as images × channels × pixels.
-/
import proofs.«177194_j90701119357020_1_alg».proof.Proof.KernelRun
import proofs.«177194_j90701119357020_1_alg».proof.Proof.KernelBoundaries
import proofs.«177194_j90701119357020_1_alg».proof.Proof.KernelCovArray
import proofs.«177194_j90701119357020_1_alg».proof.Proof.KernelGateArray
import proofs.«177194_j90701119357020_1_alg».proof.Proof.KernelScaleArray

set_option maxRecDepth 16384
noncomputable section
namespace Cert.Soca
open Cert.KernelIdeal Cert.KernelIdeal.Gen
open Idealize.ShloMosaic Idealize.ShloMosaic.TcCoe Idealize.ShloMosaic.ValueIdx Idealize.SL.Sem

/-- The hypothesis the arithmetic side supplies for the first call. -/
abbrev CovPayload : Prop :=
  ∀ (x0 : Vec Ideal S1x256x4096 .f32) (c d : Fin 256),
    k0_pay1 (F := Ideal) x0 (ix3 0 c d) = covMat (fun c m => x0 (ix3 0 c m)) c d

/-- The whole computation on the argument arrays. -/
def kernelOut (x : S32x256x64x64.Idx → EReal) (w1 : S32x256.Idx → EReal) (b1 : S32.Idx → EReal)
    (w2 : S256x32.Idx → EReal) (b2 : S256.Idx → EReal) : S32x256x64x64.Idx → EReal :=
  scaleArr x (gateArr (covArr (shapeCast S32x256x4096 x shapeCasts_S32x256x64x64_S32x256x4096)) w1
    (shapeCast S1x32 b1 shapeCasts_S32_S1x32) w2 (shapeCast S1x256 b2 shapeCasts_S256_S1x256))

variable (m : (ℓ : Loc nD τ sig) → Buf (Elt Ideal) ℓ) (ρ : Dev nD → PrngReg)

/-- The last boundary's contents at the result buffer are the whole computation on the launch contents of the arguments. -/
theorem kernel_result (hcov : CovPayload) (hgate : GatePayload) (c : Dev nD) :
    W5 m ρ c (Proc.devRef .tc main_v5)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  have hC : V3 m ρ c main_v1 = covArr (shapeCast S32x256x4096 (m ((c : Thread nD τ).loc main_arg0)) shapeCasts_S32x256x64x64_S32x256x4096) :=
    (entry1_cov m ρ c).trans ((cov_array (V1 m ρ) hcov c).trans (congrArg covArr (entry0_x m ρ c)))
  have hG : V4 m ρ c main_v4 = gateArr (covArr (shapeCast S32x256x4096 (m ((c : Thread nD τ).loc main_arg0)) shapeCasts_S32x256x64x64_S32x256x4096))
      (m ((c : Thread nD τ).loc main_arg1)) (shapeCast S1x32 (m ((c : Thread nD τ).loc main_arg2)) shapeCasts_S32_S1x32)
      (m ((c : Thread nD τ).loc main_arg3)) (shapeCast S1x256 (m ((c : Thread nD τ).loc main_arg4)) shapeCasts_S256_S1x256) := by
    refine (entry2_gate m ρ c).trans ((gate_array (V3 m ρ) hgate c).trans ?_)
    rw [hC, entry1_w1 m ρ c, entry1_w2 m ρ c, entry1_b1 m ρ c, entry1_b2 m ρ c]
  refine (exit_out m ρ c).trans ((scale_array (V4 m ρ) c).trans ?_)
  rw [hG, entry2_x m ρ c]
  rfl

end Cert.Soca
end
-- ==== Proof.RefCov.lean ====
/-
  The reference's covariance stage, read one entry at a time.

  For one image `b` of the batch the reference reshapes the input to channels × pixels (4096 pixels a channel), sums each
  row, divides by 4096, subtracts that mean from the row, multiplies the centred rows with themselves over the pixel
  axis, and divides by 4096. Entry (c, d) of the result is therefore the covariance `covMat` of the specification, of the
  image's reshaped rows. The only algebra used is `0 + s = s` for the zero the row sum starts from.
-/
import proofs.«177194_j90701119357020_1_alg».proof.Proof.RefRead
import proofs.«177194_j90701119357020_1_alg».proof.Proof.Spec

noncomputable section

namespace Cert.Soca

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The row sum of channel `c` of image `b`: the sum over the 4096 pixels of the reshaped input. -/
theorem ref_rowsum (x : (⟨S32x256x64x64, .f32⟩ : BufTy).Contents (Elt Ideal)) (b : Fin 32) (c : Fin 256) :
    val_main_v1 (F := Ideal) x (ix2 b c) = ∑ m : Fin 4096, val_main_v0 (F := Ideal) x (ix3 b c m) := by
  rw [val_main_v1_apply, val_main_cst_apply, Ideal.ofBits_def, Ideal.ofBits_zero_f32, zero_add]
  refine Finset.sum_congr rfl fun k _ => ?_
  exact congrArg (val_main_v0 (F := Ideal) x)
    (funext fun a => by match a with | ⟨0, _⟩ => rfl | ⟨1, _⟩ => rfl | ⟨2, _⟩ => rfl)

/-- The centred rows: every entry minus its row's mean. -/
theorem ref_centred (x : (⟨S32x256x64x64, .f32⟩ : BufTy).Contents (Elt Ideal)) (b : Fin 32) (c : Fin 256) (m : Fin 4096) :
    val_main_v6 (F := Ideal) x (ix3 b c m)
      = centred (fun c m => val_main_v0 (F := Ideal) x (ix3 b c m)) c m := by
  rw [val_main_v6_apply, val_main_v5_apply, val_main_v4_apply, val_main_v2_apply, val_main_v3_apply,
    val_main_cst_0_apply]
  have hi : idx_main_v2 (idx_main_v5 (ix3 b c m : S32x256x4096.Idx)) = ix2 b c :=
    funext fun a => by match a with | ⟨0, _⟩ => rfl | ⟨1, _⟩ => rfl
  rw [hi, ref_rowsum]
  rfl

/-- The product of the centred rows over the pixel axis. -/
theorem ref_gram (x : (⟨S32x256x64x64, .f32⟩ : BufTy).Contents (Elt Ideal)) (b : Fin 32) (c d : Fin 256) :
    val_main_v7 (F := Ideal) x (ix3 b c d)
      = ∑ m : Fin 4096, centred (fun c m => val_main_v0 (F := Ideal) x (ix3 b c m)) c m
          * centred (fun c m => val_main_v0 (F := Ideal) x (ix3 b c m)) d m := by
  rw [val_main_v7_apply]
  refine Finset.sum_congr rfl fun k _ => ?_
  have hl : lidx_main_v7 (ix3 b c d : S32x256x256.Idx) k = ix3 b c k :=
    funext fun a => by match a with | ⟨0, _⟩ => rfl | ⟨1, _⟩ => rfl | ⟨2, _⟩ => rfl
  have hr : ridx_main_v7 (ix3 b c d : S32x256x256.Idx) k = ix3 b d k :=
    funext fun a => by match a with | ⟨0, _⟩ => rfl | ⟨1, _⟩ => rfl | ⟨2, _⟩ => rfl
  rw [hl, hr, ref_centred, ref_centred]

/-- THE COVARIANCE: entry (c, d) of the reference's covariance of image `b` is the specification's covariance of the
    image's reshaped rows. -/
theorem ref_cov (x : (⟨S32x256x64x64, .f32⟩ : BufTy).Contents (Elt Ideal)) (b : Fin 32) (c d : Fin 256) :
    val_main_v9 (F := Ideal) x (ix3 b c d)
      = covMat (fun c m => val_main_v0 (F := Ideal) x (ix3 b c m)) c d := by
  rw [val_main_v9_apply, val_main_v8_apply, val_main_cst_1_apply, ref_gram]
  rfl

end Cert.Soca

end
-- ==== Proof.RefGate.lean ====
/-
  The reference from its covariance to its result, read one entry at a time.

  For one image `b` of the batch, with C the image's covariance matrix: the reference sums all entries of C, divides C by
  that sum, runs the coupled Newton–Schulz iteration (the start, three rounds, the closing step) as batched matrix
  products, entrywise differences from three times the identity and entrywise halvings, scales by the square root of the
  sum, takes the column means, and applies the two dense layers (the rectifier, then the logistic function written as
  1 / (1 + exp (−t))). Each stage below is read at an entry and recognised as the specification's operation on the
  image's matrix; the stages are then chained in the order the program performs them. The only algebra used is the
  regrouping of the two-axis sum into rows then columns, `0 + s = s`, and the value of the literals 0 and 1.
-/
import proofs.«177194_j90701119357020_1_alg».proof.Proof.RefRead
import proofs.«177194_j90701119357020_1_alg».proof.Proof.Spec

noncomputable section

namespace Cert.Soca

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## General facts: two literals, the identity's entries, a sum over two axes, batched arrays as matrices -/

namespace RefG

/-- The pattern of `1.0` denotes the extended real `1`. -/
theorem ofBits_one_f32 : Ideal.ofBits .f32 0x3F800000#32 = 1 := by
  simp [Ideal.ofBits, Ideal.ieee, -EReal.coe_mul]; norm_num

/-- Two row or column numbers below 256 are the same 32-bit word only when they are equal. -/
theorem ofNat32_ne {i j : Fin 256} (h : i ≠ j) : BitVec.ofNat 32 i.val ≠ BitVec.ofNat 32 j.val := by
  intro e
  have e' := congrArg BitVec.toNat e
  simp only [BitVec.toNat_ofNat] at e'
  have hi := i.isLt
  have hj := j.isLt
  rw [Nat.mod_eq_of_lt (by omega), Nat.mod_eq_of_lt (by omega)] at e'
  exact h (Fin.ext e')

/-- An entry of the identity matrix as the program builds it: the row number plus zero compared with the column number,
    the one-bit answer read as a number. -/
theorem eye_entry (i j : Fin 256) :
    FloatOps.uitofp (F := Ideal) .f32
        (IntOp.cmpi .eq (IntOp.addi (BitVec.ofNat 32 i.val) 0#32) (BitVec.ofNat 32 j.val))
      = if i = j then (1 : EReal) else 0 := by
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · subst h
    simp
  · have hne := ofNat32_ne h
    simp [h, hne]

/-- The sum over the last two axes of a 32 × 256 × 256 array, at image `b`: the initial value plus the double sum over
    rows and then columns. The entries that reduce to `b` are exactly those whose first coordinate is `b`. -/
theorem hostReduceAdd_d12 (h' : (⟨3, ![32, 256, 256]⟩ : Shape).ReducesTo [1, 2] ⟨1, ![32]⟩)
    (x : (⟨3, ![32, 256, 256]⟩ : Shape).Idx → EReal) (init : EReal) (b : Fin 32) :
    Ideal.hostReduceAdd h' x init (ix1 b) = init + ∑ i : Fin 256, ∑ j : Fin 256, x (ix3 b i j) := by
  unfold Ideal.hostReduceAdd
  refine congrArg (init + ·) ?_
  rw [← Finset.sum_product']
  have key : ∀ i ∈ Finset.univ.filter (fun i => h'.drop i = ix1 b),
      (ix3 b (i 1 : Fin 256) (i 2 : Fin 256) : (⟨3, ![32, 256, 256]⟩ : Shape).Idx) = i := by
    intro i hi
    have hd : h'.drop i = ix1 b := (Finset.mem_filter.mp hi).2
    have h0 : (i 0).val = b.val := by
      have e1 : ((h'.drop i) 0 : Nat) = i 0 := h'.drop_apply_val_of_eq i 0 0
      have e2 : ((h'.drop i) 0 : Nat) = b.val := by rw [hd]
      omega
    funext a
    match a with
    | ⟨0, _⟩ => exact Fin.ext h0.symm
    | ⟨1, _⟩ => rfl
    | ⟨2, _⟩ => rfl
  refine Finset.sum_nbij' (fun i => ((i 1 : Fin 256), (i 2 : Fin 256))) (fun p => ix3 b p.1 p.2) ?_ ?_ ?_ ?_ ?_
  · intro i _
    exact Finset.mem_product.mpr ⟨Finset.mem_univ _, Finset.mem_univ _⟩
  · intro p _
    refine Finset.mem_filter.mpr ⟨Finset.mem_univ _, ?_⟩
    funext a
    match a with
    | ⟨0, _⟩ => exact Fin.ext (h'.drop_apply_val_of_eq (ix3 b p.1 p.2) 0 0)
  · intro i hi
    exact key i hi
  · intro p _
    rfl
  · intro i hi
    exact congrArg x (key i hi).symm

/-- Image `b` of a batched 32 × 256 × 256 array, as a matrix. -/
def matOf (V : (⟨3, ![32, 256, 256]⟩ : Shape).Idx → EReal) (b : Fin 32) : Mat := fun i j => V (ix3 b i j)

theorem matOf_apply (V : (⟨3, ![32, 256, 256]⟩ : Shape).Idx → EReal) (b : Fin 32) (i j : Fin 256) :
    matOf V b i j = V (ix3 b i j) := rfl

/-- A batched product read entry by entry is, image by image, the matrix product. -/
theorem mm_of_read {P A B : (⟨3, ![32, 256, 256]⟩ : Shape).Idx → EReal}
    {l r : (⟨3, ![32, 256, 256]⟩ : Shape).Idx → Fin 256 → (⟨3, ![32, 256, 256]⟩ : Shape).Idx}
    (h : ∀ i, P i = ∑ k : Fin 256, A (l i k) * B (r i k))
    (hl : ∀ (b : Fin 32) (i j k : Fin 256), l (ix3 b i j) k = ix3 b i k)
    (hr : ∀ (b : Fin 32) (i j k : Fin 256), r (ix3 b i j) k = ix3 b k j) (b : Fin 32) :
    matOf P b = mm (matOf A b) (matOf B b) := by
  funext i j
  show P (ix3 b i j) = ∑ k : Fin 256, A (ix3 b i k) * B (ix3 b k j)
  rw [h]
  exact Finset.sum_congr rfl fun k _ => by rw [hl, hr]

/-- An entrywise difference from three times the identity is, image by image, the matrix difference. -/
theorem msub_of_read {P E Z : (⟨3, ![32, 256, 256]⟩ : Shape).Idx → EReal}
    (h : ∀ i, P i = E i - Z i) (he : ∀ (b : Fin 32) (i j : Fin 256), E (ix3 b i j) = eye3 i j) (b : Fin 32) :
    matOf P b = msub eye3 (matOf Z b) := by
  funext i j
  show P (ix3 b i j) = eye3 i j - Z (ix3 b i j)
  rw [h, he]

/-- An entrywise product with the splat one half is, image by image, the scaling by one half. -/
theorem mscale_of_read {P H Z : (⟨3, ![32, 256, 256]⟩ : Shape).Idx → EReal}
    (h : ∀ i, P i = H i * Z i) (hh : ∀ i, H i = cHalf) (b : Fin 32) :
    matOf P b = mscale cHalf (matOf Z b) := by
  funext i j
  show P (ix3 b i j) = cHalf * Z (ix3 b i j)
  rw [h, hh]

end RefG

open RefG

/-- The index equations of a read at rank three: coordinate by coordinate, each by computation. -/
local macro "idx3" : tactic =>
  `(tactic| (intros; funext a; match a with | ⟨0, _⟩ => rfl | ⟨1, _⟩ => rfl | ⟨2, _⟩ => rfl))

/-! ## Three times the identity -/

/-- The 1 × 256 × 256 array the program builds once: three times the identity. -/
theorem ref_eye (i j : Fin 256) : val_main_v22 (F := Ideal) (ix3 (0 : Fin 1) i j) = eye3 i j := by
  rw [val_main_v22_apply, val_main_v21_apply, val_main_cst_3_apply, val_main_v20_apply, val_main_v19_apply,
    val_main_v18_apply, val_main_v17_apply, val_main_v14_apply, val_main_v15_apply, val_main_v16_apply,
    val_main_c_apply]
  exact congrArg (cThree * ·) (eye_entry i j)

/-- Each of its five broadcasts over the batch reads it at every image. -/
theorem ref_v23 (b : Fin 32) (i j : Fin 256) : val_main_v23 (F := Ideal) (ix3 b i j) = eye3 i j := by
  rw [val_main_v23_apply]
  have hi : idx_main_v23 (ix3 b i j : S32x256x256.Idx) = ix3 (0 : Fin 1) i j :=
    funext fun a => by match a with | ⟨0, _⟩ => rfl | ⟨1, _⟩ => rfl | ⟨2, _⟩ => rfl
  rw [hi]
  exact ref_eye i j
theorem ref_v28 (b : Fin 32) (i j : Fin 256) : val_main_v28 (F := Ideal) (ix3 b i j) = eye3 i j := by
  rw [val_main_v28_apply]
  have hi : idx_main_v28 (ix3 b i j : S32x256x256.Idx) = ix3 (0 : Fin 1) i j :=
    funext fun a => by match a with | ⟨0, _⟩ => rfl | ⟨1, _⟩ => rfl | ⟨2, _⟩ => rfl
  rw [hi]
  exact ref_eye i j
theorem ref_v35 (b : Fin 32) (i j : Fin 256) : val_main_v35 (F := Ideal) (ix3 b i j) = eye3 i j := by
  rw [val_main_v35_apply]
  have hi : idx_main_v35 (ix3 b i j : S32x256x256.Idx) = ix3 (0 : Fin 1) i j :=
    funext fun a => by match a with | ⟨0, _⟩ => rfl | ⟨1, _⟩ => rfl | ⟨2, _⟩ => rfl
  rw [hi]
  exact ref_eye i j
theorem ref_v42 (b : Fin 32) (i j : Fin 256) : val_main_v42 (F := Ideal) (ix3 b i j) = eye3 i j := by
  rw [val_main_v42_apply]
  have hi : idx_main_v42 (ix3 b i j : S32x256x256.Idx) = ix3 (0 : Fin 1) i j :=
    funext fun a => by match a with | ⟨0, _⟩ => rfl | ⟨1, _⟩ => rfl | ⟨2, _⟩ => rfl
  rw [hi]
  exact ref_eye i j
theorem ref_v51 (b : Fin 32) (i j : Fin 256) : val_main_v51 (F := Ideal) (ix3 b i j) = eye3 i j := by
  rw [val_main_v51_apply]
  have hi : idx_main_v51 (ix3 b i j : S32x256x256.Idx) = ix3 (0 : Fin 1) i j :=
    funext fun a => by match a with | ⟨0, _⟩ => rfl | ⟨1, _⟩ => rfl | ⟨2, _⟩ => rfl
  rw [hi]
  exact ref_eye i j

section
variable (x : (⟨S32x256x64x64, .f32⟩ : BufTy).Contents (Elt Ideal)) (b : Fin 32)

/-! ## The sum of the covariance's entries and the normalised matrix -/

/-- The sum over rows and columns of image `b`'s covariance. -/
theorem ref_total : val_main_v10 (F := Ideal) x (ix1 b) = total (matOf (val_main_v9 (F := Ideal) x) b) := by
  unfold val_main_v10
  generalize val_main_v9 (F := Ideal) x = y
  simp only [Host.reduceAdd, Ideal.hostReduceAdd_def]
  rw [hostReduceAdd_d12, val_main_cst_2_apply, Ideal.ofBits_def, Ideal.ofBits_zero_f32, zero_add]
  rfl

/-- The covariance divided by that sum. -/
theorem ref_normed : matOf (val_main_v13 (F := Ideal) x) b = normed (matOf (val_main_v9 (F := Ideal) x) b) := by
  funext i j
  show val_main_v13 (F := Ideal) x (ix3 b i j)
    = Ideal.div (val_main_v9 (F := Ideal) x (ix3 b i j)) (total (matOf (val_main_v9 (F := Ideal) x) b))
  rw [val_main_v13_apply, val_main_v12_apply, val_main_v11_apply]
  have hi : idx_main_v11 (idx_main_v12 (ix3 b i j : S32x256x256.Idx)) = ix1 b :=
    funext fun a => by match a with | ⟨0, _⟩ => rfl
  rw [hi, ref_total]
  rfl

/-! ## The iteration, stage by stage, on the normalised matrix -/

/-- The start: one half of (three times the identity minus A). -/
theorem ref_zy0 : matOf (val_main_v26 (F := Ideal) x) b = zy0 (matOf (val_main_v13 (F := Ideal) x) b) := by
  have hs := msub_of_read (P := val_main_v24 (F := Ideal) x) (E := val_main_v23 (F := Ideal)) (Z := val_main_v13 (F := Ideal) x)
    (val_main_v24_apply (F := Ideal) x) ref_v23 b
  have hh := mscale_of_read (P := val_main_v26 (F := Ideal) x) (H := val_main_v25 (F := Ideal)) (Z := val_main_v24 (F := Ideal) x)
    (val_main_v26_apply (F := Ideal) x) (fun i => by rw [val_main_v25_apply, val_main_cst_4_apply]; rfl) b
  rw [hh, hs]
  rfl

/-- The start: A times that. -/
theorem ref_y0 : matOf (val_main_v27 (F := Ideal) x) b = y0 (matOf (val_main_v13 (F := Ideal) x) b) := by
  rw [mm_of_read (val_main_v27_apply x) (by idx3) (by idx3) b, ref_zy0]
  rfl

/-- Round 1: one half of (three times the identity minus Z) times Y. -/
theorem ref_zy1 : matOf (val_main_v32 (F := Ideal) x) b = zyNext (y0 (matOf (val_main_v13 (F := Ideal) x) b)) (zy0 (matOf (val_main_v13 (F := Ideal) x) b)) := by
  have hs := msub_of_read (P := val_main_v29 (F := Ideal) x) (E := val_main_v28 (F := Ideal)) (Z := val_main_v26 (F := Ideal) x)
    (val_main_v29_apply (F := Ideal) x) ref_v28 b
  have hd := mm_of_read (val_main_v30_apply x) (by idx3) (by idx3) b
  have hh := mscale_of_read (P := val_main_v32 (F := Ideal) x) (H := val_main_v31 (F := Ideal)) (Z := val_main_v30 (F := Ideal) x)
    (val_main_v32_apply (F := Ideal) x) (fun i => by rw [val_main_v31_apply, val_main_cst_5_apply]; rfl) b
  rw [hh, hd, hs, ref_zy0, ref_y0]
  rfl

/-- Round 1: the new Y is the old Y times that. -/
theorem ref_y1 : matOf (val_main_v33 (F := Ideal) x) b = y1 (matOf (val_main_v13 (F := Ideal) x) b) := by
  rw [mm_of_read (val_main_v33_apply x) (by idx3) (by idx3) b, ref_y0, ref_zy1]
  rfl

/-- Round 1: the new Z is that times the old Z. -/
theorem ref_z1 : matOf (val_main_v34 (F := Ideal) x) b = z1 (matOf (val_main_v13 (F := Ideal) x) b) := by
  rw [mm_of_read (val_main_v34_apply x) (by idx3) (by idx3) b, ref_zy1, ref_zy0]
  rfl

/-- Round 2: one half of (three times the identity minus Z) times Y. -/
theorem ref_zy2 : matOf (val_main_v39 (F := Ideal) x) b = zyNext (y1 (matOf (val_main_v13 (F := Ideal) x) b)) (z1 (matOf (val_main_v13 (F := Ideal) x) b)) := by
  have hs := msub_of_read (P := val_main_v36 (F := Ideal) x) (E := val_main_v35 (F := Ideal)) (Z := val_main_v34 (F := Ideal) x)
    (val_main_v36_apply (F := Ideal) x) ref_v35 b
  have hd := mm_of_read (val_main_v37_apply x) (by idx3) (by idx3) b
  have hh := mscale_of_read (P := val_main_v39 (F := Ideal) x) (H := val_main_v38 (F := Ideal)) (Z := val_main_v37 (F := Ideal) x)
    (val_main_v39_apply (F := Ideal) x) (fun i => by rw [val_main_v38_apply, val_main_cst_6_apply]; rfl) b
  rw [hh, hd, hs, ref_z1, ref_y1]
  rfl

/-- Round 2: the new Y is the old Y times that. -/
theorem ref_y2 : matOf (val_main_v40 (F := Ideal) x) b = y2 (matOf (val_main_v13 (F := Ideal) x) b) := by
  rw [mm_of_read (val_main_v40_apply x) (by idx3) (by idx3) b, ref_y1, ref_zy2]
  rfl

/-- Round 2: the new Z is that times the old Z. -/
theorem ref_z2 : matOf (val_main_v41 (F := Ideal) x) b = z2 (matOf (val_main_v13 (F := Ideal) x) b) := by
  rw [mm_of_read (val_main_v41_apply x) (by idx3) (by idx3) b, ref_zy2, ref_z1]
  rfl

/-- Round 3: one half of (three times the identity minus Z) times Y. -/
theorem ref_zy3 : matOf (val_main_v46 (F := Ideal) x) b = zyNext (y2 (matOf (val_main_v13 (F := Ideal) x) b)) (z2 (matOf (val_main_v13 (F := Ideal) x) b)) := by
  have hs := msub_of_read (P := val_main_v43 (F := Ideal) x) (E := val_main_v42 (F := Ideal)) (Z := val_main_v41 (F := Ideal) x)
    (val_main_v43_apply (F := Ideal) x) ref_v42 b
  have hd := mm_of_read (val_main_v44_apply x) (by idx3) (by idx3) b
  have hh := mscale_of_read (P := val_main_v46 (F := Ideal) x) (H := val_main_v45 (F := Ideal)) (Z := val_main_v44 (F := Ideal) x)
    (val_main_v46_apply (F := Ideal) x) (fun i => by rw [val_main_v45_apply, val_main_cst_7_apply]; rfl) b
  rw [hh, hd, hs, ref_z2, ref_y2]
  rfl

/-- Round 3: the new Y is the old Y times that. -/
theorem ref_y3 : matOf (val_main_v47 (F := Ideal) x) b = y3 (matOf (val_main_v13 (F := Ideal) x) b) := by
  rw [mm_of_read (val_main_v47_apply x) (by idx3) (by idx3) b, ref_y2, ref_zy3]
  rfl

/-- Round 3: the new Z is that times the old Z. -/
theorem ref_z3 : matOf (val_main_v48 (F := Ideal) x) b = z3 (matOf (val_main_v13 (F := Ideal) x) b) := by
  rw [mm_of_read (val_main_v48_apply x) (by idx3) (by idx3) b, ref_zy3, ref_z2]
  rfl

/-- The closing step: ((one half of Y) times (three times the identity minus Z)) times Y. -/
theorem ref_ns : matOf (val_main_v54 (F := Ideal) x) b = nsLast (matOf (val_main_v13 (F := Ideal) x) b) := by
  have hh := mscale_of_read (P := val_main_v50 (F := Ideal) x) (H := val_main_v49 (F := Ideal)) (Z := val_main_v47 (F := Ideal) x)
    (val_main_v50_apply (F := Ideal) x) (fun i => by rw [val_main_v49_apply, val_main_cst_8_apply]; rfl) b
  have hs := msub_of_read (P := val_main_v52 (F := Ideal) x) (E := val_main_v51 (F := Ideal)) (Z := val_main_v48 (F := Ideal) x)
    (val_main_v52_apply (F := Ideal) x) ref_v51 b
  have h53 := mm_of_read (val_main_v53_apply x) (by idx3) (by idx3) b
  have h54 := mm_of_read (val_main_v54_apply x) (by idx3) (by idx3) b
  rw [h54, h53, hh, hs, ref_y3, ref_z3]
  rfl

/-! ## The square root of the covariance and its column means -/

/-- The iteration's result scaled by the square root of the sum of entries. -/
theorem ref_sqrt : matOf (val_main_v58 (F := Ideal) x) b = covSqrt (matOf (val_main_v9 (F := Ideal) x) b) := by
  funext i j
  show val_main_v58 (F := Ideal) x (ix3 b i j)
    = nsLast (normed (matOf (val_main_v9 (F := Ideal) x) b)) i j * Ideal.sqrt (total (matOf (val_main_v9 (F := Ideal) x) b))
  rw [val_main_v58_apply, val_main_v57_apply, val_main_v56_apply, val_main_v55_apply]
  have hi : idx_main_v56 (idx_main_v57 (ix3 b i j : S32x256x256.Idx)) = ix1 b :=
    funext fun a => by match a with | ⟨0, _⟩ => rfl
  rw [hi, ref_total, ← ref_normed, ← ref_ns]
  rfl

/-- The column means. -/
theorem ref_colmean (j : Fin 256) :
    val_main_v61 (F := Ideal) x (ix2 b j) = colMean (matOf (val_main_v9 (F := Ideal) x) b) j := by
  rw [val_main_v61_apply, val_main_v59_apply, val_main_cst_9_apply, Ideal.ofBits_def, Ideal.ofBits_zero_f32, zero_add,
    val_main_v60_apply, val_main_cst_10_apply]
  have hs : ∑ k : Fin 256, val_main_v58 (F := Ideal) x (idx_main_v59 (ix2 b j : S32x256.Idx) k)
      = ∑ i : Fin 256, covSqrt (matOf (val_main_v9 (F := Ideal) x) b) i j := by
    refine Finset.sum_congr rfl fun k _ => ?_
    have hi : idx_main_v59 (ix2 b j : S32x256.Idx) k = ix3 b k j :=
      funext fun a => by match a with | ⟨0, _⟩ => rfl | ⟨1, _⟩ => rfl | ⟨2, _⟩ => rfl
    rw [hi]
    exact congrFun (congrFun (ref_sqrt x b) k) j
  rw [hs]
  rfl

/-! ## The two dense layers and the gate -/

/-- The first layer with its rectifier. -/
theorem ref_hidden (w1 : (⟨S32x256, .f32⟩ : BufTy).Contents (Elt Ideal)) (b1 : (⟨S32, .f32⟩ : BufTy).Contents (Elt Ideal)) (a : Fin 32) :
    val_main_v67 (F := Ideal) x w1 b1 (ix2 b a)
      = hidden (colMean (matOf (val_main_v9 (F := Ideal) x) b)) (fun a k => w1 (ix2 a k)) (fun a => b1 (ix1 a)) a := by
  rw [val_main_v67_apply, val_main_call0_v0_apply, val_main_call0_cst_apply, val_main_v66_apply, val_main_v65_apply,
    val_main_v64_apply, val_main_v63_apply]
  have hb : idx_main_v64 (idx_main_v65 (ix2 b a : S32x32.Idx)) = ix1 a :=
    funext fun d => by match d with | ⟨0, _⟩ => rfl
  have hs : ∑ k : Fin 256, val_main_v61 (F := Ideal) x (lidx_main_v63 (ix2 b a : S32x32.Idx) k)
        * val_main_v62 (F := Ideal) w1 (ridx_main_v63 (ix2 b a : S32x32.Idx) k)
      = ∑ k : Fin 256, colMean (matOf (val_main_v9 (F := Ideal) x) b) k * w1 (ix2 a k) := by
    refine Finset.sum_congr rfl fun k _ => ?_
    have hl : lidx_main_v63 (ix2 b a : S32x32.Idx) k = ix2 b k :=
      funext fun d => by match d with | ⟨0, _⟩ => rfl | ⟨1, _⟩ => rfl
    have hr : ridx_main_v63 (ix2 b a : S32x32.Idx) k = ix2 k a :=
      funext fun d => by match d with | ⟨0, _⟩ => rfl | ⟨1, _⟩ => rfl
    have ht : idx_main_v62 (ix2 k a : S256x32.Idx) = ix2 a k :=
      funext fun d => by match d with | ⟨0, _⟩ => rfl | ⟨1, _⟩ => rfl
    rw [hl, hr, ref_colmean, val_main_v62_apply, ht]
  rw [hb, hs]
  rfl

/-- THE GATE: the second layer with the logistic function, which the program writes as 1 / (1 + exp (−t)). -/
theorem ref_gate (w1 : (⟨S32x256, .f32⟩ : BufTy).Contents (Elt Ideal)) (b1 : (⟨S32, .f32⟩ : BufTy).Contents (Elt Ideal)) (w2 : (⟨S256x32, .f32⟩ : BufTy).Contents (Elt Ideal)) (b2 : (⟨S256, .f32⟩ : BufTy).Contents (Elt Ideal)) (ch : Fin 256) :
    val_main_v78 (F := Ideal) x w1 b1 w2 b2 (ix2 b ch)
      = gateRow (fun i j => val_main_v9 (F := Ideal) x (ix3 b i j)) (fun a k => w1 (ix2 a k)) (fun a => b1 (ix1 a))
          (fun c a => w2 (ix2 c a)) (fun c => b2 (ix1 c)) ch := by
  rw [val_main_v78_apply, val_main_v77_apply, val_main_cst_12_apply, val_main_v76_apply, val_main_v75_apply,
    val_main_cst_11_apply, val_main_v74_apply, val_main_v73_apply, val_main_v72_apply, val_main_v71_apply,
    val_main_v70_apply, val_main_v69_apply]
  have hb : idx_main_v70 (idx_main_v71 (ix2 b ch : S32x256.Idx)) = ix1 ch :=
    funext fun d => by match d with | ⟨0, _⟩ => rfl
  have hs : ∑ k : Fin 32, val_main_v67 (F := Ideal) x w1 b1 (lidx_main_v69 (ix2 b ch : S32x256.Idx) k)
        * val_main_v68 (F := Ideal) w2 (ridx_main_v69 (ix2 b ch : S32x256.Idx) k)
      = ∑ a : Fin 32, hidden (colMean (matOf (val_main_v9 (F := Ideal) x) b)) (fun a k => w1 (ix2 a k)) (fun a => b1 (ix1 a)) a * w2 (ix2 ch a) := by
    refine Finset.sum_congr rfl fun k _ => ?_
    have hl : lidx_main_v69 (ix2 b ch : S32x256.Idx) k = ix2 b k :=
      funext fun d => by match d with | ⟨0, _⟩ => rfl | ⟨1, _⟩ => rfl
    have hr : ridx_main_v69 (ix2 b ch : S32x256.Idx) k = ix2 k ch :=
      funext fun d => by match d with | ⟨0, _⟩ => rfl | ⟨1, _⟩ => rfl
    have ht : idx_main_v68 (ix2 k ch : S32x256.Idx) = ix2 ch k :=
      funext fun d => by match d with | ⟨0, _⟩ => rfl | ⟨1, _⟩ => rfl
    rw [hl, hr, ref_hidden, val_main_v68_apply, ht]
  rw [hb, hs, Ideal.ofBits_def, ofBits_one_f32]
  rfl

/-- THE RESULT: the gate of the entry's image and channel times the input entry. -/
theorem ref_out (w1 : (⟨S32x256, .f32⟩ : BufTy).Contents (Elt Ideal)) (b1 : (⟨S32, .f32⟩ : BufTy).Contents (Elt Ideal)) (w2 : (⟨S256x32, .f32⟩ : BufTy).Contents (Elt Ideal)) (b2 : (⟨S256, .f32⟩ : BufTy).Contents (Elt Ideal)) (ch : Fin 256) (h w : Fin 64) :
    val_main_v81 (F := Ideal) x w1 b1 w2 b2 (ix4 b ch h w)
      = val_main_v78 (F := Ideal) x w1 b1 w2 b2 (ix2 b ch) * x (ix4 b ch h w) := by
  rw [val_main_v81_apply, val_main_v80_apply, val_main_v79_apply]
  have hi : idx_main_v79 (idx_main_v80 (ix4 b ch h w : S32x256x64x64.Idx)) = ix2 b ch :=
    funext fun d => by match d with | ⟨0, _⟩ => rfl | ⟨1, _⟩ => rfl
  rw [hi]
  rfl

end

end Cert.Soca

end
-- ==== Proof.Bridge.lean ====
/-
  The two programs compute one function.

  The reference's result, entry (b, ch, h, w), is its gate at (b, ch) times the input entry; its gate at (b, ch) is the
  channel gate of image b's covariance under the two dense layers; and its covariance of image b is the covariance of
  that image's channels over its pixels. The kernel's result is the same three steps, with the two bias vectors read
  as one-row matrices — which changes no entry. So the reference's result is the kernel's function of the arguments.
-/
import proofs.«177194_j90701119357020_1_alg».proof.Proof.RefRead
import proofs.«177194_j90701119357020_1_alg».proof.Proof.RefCov
import proofs.«177194_j90701119357020_1_alg».proof.Proof.RefGate
import proofs.«177194_j90701119357020_1_alg».proof.Proof.KernelValue
import Idealize.ShloMosaic.Lib.ValueLayout

set_option maxRecDepth 16384
noncomputable section
namespace Cert.Soca
open Idealize.ShloMosaic Idealize.ShloMosaic.TcCoe Idealize.ShloMosaic.ValueIdx Idealize.SL.Sem
open Cert.ReferenceIdeal.Read
open Cert.KernelIdeal.Gen (shapeCasts_S32x256x64x64_S32x256x4096 shapeCasts_S32_S1x32 shapeCasts_S256_S1x256)

/-- The reference's result array is the kernel's function of the five argument arrays. -/
theorem ref_value (x : Cert.KernelIdeal.S32x256x64x64.Idx → EReal) (w1 : Cert.KernelIdeal.S32x256.Idx → EReal)
    (b1 : Cert.KernelIdeal.S32.Idx → EReal) (w2 : Cert.KernelIdeal.S256x32.Idx → EReal) (b2 : Cert.KernelIdeal.S256.Idx → EReal) :
    val_main_v81 (F := Ideal) x w1 b1 w2 b2 = kernelOut x w1 b1 w2 b2 := by
  funext i
  obtain ⟨b, ch, h, w, rfl⟩ : ∃ (b : Fin 32) (ch : Fin 256) (h w : Fin 64), i = ix4 b ch h w := ⟨i 0, i 1, i 2, i 3, eq_ix4 i⟩
  rw [ref_out, ref_gate]
  show _ = gateRow (fun r s => covMat (fun c m => shapeCast Cert.KernelIdeal.S32x256x4096 x shapeCasts_S32x256x64x64_S32x256x4096 (ix3 b c m)) r s)
      (fun a k => w1 (ix2 a k)) (fun a => shapeCast Cert.KernelIdeal.S1x32 b1 shapeCasts_S32_S1x32 (ix2 0 a))
      (fun c a => w2 (ix2 c a)) (fun c => shapeCast Cert.KernelIdeal.S1x256 b2 shapeCasts_S256_S1x256 (ix2 0 c)) ch * x (ix4 b ch h w)
  have eC : (fun i j => val_main_v9 (F := Ideal) x (ix3 b i j))
      = fun r s => covMat (fun c m => shapeCast Cert.KernelIdeal.S32x256x4096 x shapeCasts_S32x256x64x64_S32x256x4096 (ix3 b c m)) r s :=
    funext fun r => funext fun s => ref_cov x b r s
  have e1 : (fun a => b1 (ix1 a)) = fun a : Fin 32 => shapeCast Cert.KernelIdeal.S1x32 b1 shapeCasts_S32_S1x32 (ix2 0 a) :=
    funext fun a => (shapeCast_a_1a_apply b1 _ 0 a).symm
  have e2 : (fun c => b2 (ix1 c)) = fun c : Fin 256 => shapeCast Cert.KernelIdeal.S1x256 b2 shapeCasts_S256_S1x256 (ix2 0 c) :=
    funext fun c => (shapeCast_a_1a_apply b2 _ 0 c).symm
  rw [eC, e1, e2]

end Cert.Soca
end
-- ==== Proof.lean ====
/-
  The certificate's five claims.

  The three frame claims: the two kernel programs' runs are the pipelined-call runs whose boundary contents never touch
  an argument array; the reference is a straight-line host program, whose run leaves its arguments alone.
  The idealisation rewrote no operation, so there is nothing to preserve.
  The value claim: run from memories that agree on the five arguments, the idealised kernel ends with its result array
  at one explicit function of those arguments (three pipelined calls chained: covariance per image, the Newton–Schulz
  square root and the two dense layers per image, the gate applied to the input), and the idealised reference ends with
  its result array at the same function: both perform the same exact operations on the extended reals in the same
  order, the only regrouping being a double sum taken rows-then-columns on one side and over both axes at once on the
  other. No finiteness of the inputs is used.
-/
import proofs.«177194_j90701119357020_1_alg».proof.Defs
import proofs.«177194_j90701119357020_1_alg».proof.Proof.Gen.Kernel
import proofs.«177194_j90701119357020_1_alg».proof.Proof.Gen.Kernel.Skeleton
import proofs.«177194_j90701119357020_1_alg».proof.Proof.Gen.Kernel.Launch
import proofs.«177194_j90701119357020_1_alg».proof.Proof.Gen.Kernel.Points
import proofs.«177194_j90701119357020_1_alg».proof.Proof.Gen.Kernel.Frame
import proofs.«177194_j90701119357020_1_alg».proof.Proof.Gen.KernelIdeal
import proofs.«177194_j90701119357020_1_alg».proof.Proof.Gen.KernelIdeal.Skeleton
import proofs.«177194_j90701119357020_1_alg».proof.Proof.Gen.KernelIdeal.Launch
import proofs.«177194_j90701119357020_1_alg».proof.Proof.Gen.KernelIdeal.Points
import proofs.«177194_j90701119357020_1_alg».proof.Proof.Gen.KernelIdeal.Frame
import proofs.«177194_j90701119357020_1_alg».proof.Proof.Gen.ReferenceIdeal
import proofs.«177194_j90701119357020_1_alg».proof.Proof.Gen.Pre_finite_inputs
import proofs.«177194_j90701119357020_1_alg».proof.Proof.RefRun
import proofs.«177194_j90701119357020_1_alg».proof.Proof.RefRead
import proofs.«177194_j90701119357020_1_alg».proof.Proof.KernelCov
import proofs.«177194_j90701119357020_1_alg».proof.Proof.KernelGate
import proofs.«177194_j90701119357020_1_alg».proof.Proof.KernelValue
import proofs.«177194_j90701119357020_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result at the same function of arguments that agree. -/
theorem algebraic : Cert.algebraic_KernelIdeal_ReferenceIdeal := by
  intro m ρ m' ρ' _ hagree
  refine ⟨fun c => Cert.Soca.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Soca.kernel_result m ρ Cert.Soca.cov_payload Cert.Soca.gate_payload c), (h c).2⟩)
      (Cert.KernelIdeal.Out.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1, (hagree c).2.2.2.2]
    exact Cert.Soca.ref_value _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
